-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "sqrt5_sq" .f32 0x40A00000#32 ((87960932805001 / 17592186044416 : ℝ) : EReal)
  ∧ IdealRules.named_const.Statement Cert.KernelIdeal.κ "sqrt5_sq_eps" .f32 0x2CAFEBFF#32 ((202824101181881920843 / 40564819207303340847894502572032 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v181)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v181) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8 : Shape := ⟨2, ![8192, 8]⟩
abbrev S8192x1 : Shape := ⟨2, ![8192, 1]⟩
abbrev S6 : Shape := ⟨1, ![6]⟩
abbrev S1 : Shape := ⟨1, ![1]⟩
abbrev S4x2 : Shape := ⟨2, ![4, 2]⟩
abbrev S_ : Shape := ⟨0, ![]⟩

class Facts : Prop where
  bcast_S_S8192x8 : S_.BroadcastsInDim S8192x8 (![] : Fin 0 → Fin S8192x8.rank)
  reducesTo_S8192x8_S_d0_1 : S8192x8.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S6 : S_.BroadcastsInDim S6 (![] : Fin 0 → Fin S6.rank)
  reducesTo_S6_S_d0 : S6.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8192x8 .f32) (main_arg1 : FVec F S8192x8 .f32) (main_arg2 : FVec F S8192x1 .f32) (main_arg3 : FVec F S6 .f32) (main_arg4 : FVec F S1 .f32) (main_arg5 : IVec S4x2 32) (main_arg6 : IVec S4x2 32) : IVec S_ 1 :=
  let main_v0 : FVec F S8192x8 .f32 := Host.absf main_arg0
  let main_cst : FVec F S_ .f32 := constant S_ .f32 0x7F800000#32
  let main_v1 : FVec F S8192x8 .f32 := broadcastInDim S8192x8 ![] bcast_S_S8192x8 main_cst
  let main_v2 : IVec S8192x8 1 := cmpf .olt main_v0 main_v1
  let main_c : IVec S_ 1 := constantI S_ 1 1#1
  let main_v3 : IVec S_ 1 := (fun x v => Host.reduce IntOp.andi x v reducesTo_S8192x8_S_d0_1 h_S_) main_v2 main_c
  let main_v4 : FVec F S8192x8 .f32 := Host.absf main_arg1
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_c_1 : IVec S_ 1 := constantI S_ 1 1#1
  let main_v7 : IVec S_ 1 := (fun x v => Host.reduce IntOp.andi x v reducesTo_S8192x8_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S6 .f32 := Host.absf main_arg3
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_arg4 main_v13 main_v16
-- ==== Kernel.lean ====
abbrev S8192x8 : Shape := ⟨2, ![8192, 8]⟩
abbrev S8192x1 : Shape := ⟨2, ![8192, 1]⟩
abbrev S6 : Shape := ⟨1, ![6]⟩
abbrev S1 : Shape := ⟨1, ![1]⟩
abbrev S4x2 : Shape := ⟨2, ![4, 2]⟩
abbrev S_ : Shape := ⟨0, ![]⟩
abbrev S5x5 : Shape := ⟨2, ![5, 5]⟩
abbrev S2 : Shape := ⟨1, ![2]⟩
abbrev S8192 : Shape := ⟨1, ![8192]⟩
abbrev S1x1 : Shape := ⟨2, ![1, 1]⟩
abbrev S1x5 : Shape := ⟨2, ![1, 5]⟩
abbrev S8192x5 : Shape := ⟨2, ![8192, 5]⟩
abbrev S5x8192 : Shape := ⟨2, ![5, 8192]⟩
abbrev S1x8192 : Shape := ⟨2, ![1, 8192]⟩
abbrev S1024x8 : Shape := ⟨2, ![1024, 8]⟩
abbrev S1024x5 : Shape := ⟨2, ![1024, 5]⟩
abbrev S5x1024 : Shape := ⟨2, ![5, 1024]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 246
  | .vmem => 14
  | .smem => 0
  | _ => 0

abbrev hbmTy0_0 (i : Nat) : BufTy := match i % 128 with
  | 0 => ⟨S8192x8, .f32⟩
  | 1 => ⟨S8192x8, .f32⟩
  | 2 => ⟨S8192x1, .f32⟩
  | 3 => ⟨S6, .f32⟩
  | 4 => ⟨S1, .f32⟩
  | 5 => ⟨S4x2, .i32⟩
  | 6 => ⟨S4x2, .i32⟩
  | 7 => ⟨S6, .f32⟩
  | 8 => ⟨S6, .f32⟩
  | 9 => ⟨S_, .f32⟩
  | 10 => ⟨S6, .f32⟩
  | 11 => ⟨S6, .f32⟩
  | 12 => ⟨S_, .f32⟩
  | 13 => ⟨S6, .f32⟩
  | 14 => ⟨S6, .f32⟩
  | 15 => ⟨S_, .f32⟩
  | 16 => ⟨S5x5, .f32⟩
  | 17 => ⟨S1, .f32⟩
  | 18 => ⟨S_, .f32⟩
  | 19 => ⟨S_, .i32⟩
  | 20 => ⟨S1, .i32⟩
  | 21 => ⟨S_, .i32⟩
  | 22 => ⟨S1, .i32⟩
  | 23 => ⟨S2, .i32⟩
  | 24 => ⟨S5x5, .f32⟩
  | 25 => ⟨S1, .f32⟩
  | 26 => ⟨S_, .f32⟩
  | 27 => ⟨S_, .i32⟩
  | 28 => ⟨S1, .i32⟩
  | 29 => ⟨S_, .i32⟩
  | 30 => ⟨S1, .i32⟩
  | 31 => ⟨S2, .i32⟩
  | 32 => ⟨S5x5, .f32⟩
  | 33 => ⟨S1, .f32⟩
  | 34 => ⟨S_, .f32⟩
  | 35 => ⟨S_, .i32⟩
  | 36 => ⟨S1, .i32⟩
  | 37 => ⟨S_, .i32⟩
  | 38 => ⟨S1, .i32⟩
  | 39 => ⟨S2, .i32⟩
  | 40 => ⟨S5x5, .f32⟩
  | 41 => ⟨S1, .f32⟩
  | 42 => ⟨S_, .f32⟩
  | 43 => ⟨S_, .i32⟩
  | 44 => ⟨S1, .i32⟩
  | 45 => ⟨S_, .i32⟩
  | 46 => ⟨S1, .i32⟩
  | 47 => ⟨S2, .i32⟩
  | 48 => ⟨S5x5, .f32⟩
  | 49 => ⟨S1, .f32⟩
  | 50 => ⟨S_, .f32⟩
  | 51 => ⟨S_, .i32⟩
  | 52 => ⟨S1, .i32⟩
  | 53 => ⟨S_, .i32⟩
  | 54 => ⟨S1, .i32⟩
  | 55 => ⟨S2, .i32⟩
  | 56 => ⟨S5x5, .f32⟩
  | 57 => ⟨S1, .f32⟩
  | 58 => ⟨S_, .f32⟩
  | 59 => ⟨S_, .i32⟩
  | 60 => ⟨S1, .i32⟩
  | 61 => ⟨S_, .i32⟩
  | 62 => ⟨S1, .i32⟩
  | 63 => ⟨S2, .i32⟩
  | 64 => ⟨S5x5, .f32⟩
  | 65 => ⟨S1, .f32⟩
  | 66 => ⟨S_, .f32⟩
  | 67 => ⟨S_, .i32⟩
  | 68 => ⟨S1, .i32⟩
  | 69 => ⟨S_, .i32⟩
  | 70 => ⟨S1, .i32⟩
  | 71 => ⟨S2, .i32⟩
  | 72 => ⟨S5x5, .f32⟩
  | 73 => ⟨S1, .f32⟩
  | 74 => ⟨S_, .f32⟩
  | 75 => ⟨S_, .i32⟩
  | 76 => ⟨S1, .i32⟩
  | 77 => ⟨S_, .i32⟩
  | 78 => ⟨S1, .i32⟩
  | 79 => ⟨S2, .i32⟩
  | 80 => ⟨S5x5, .f32⟩
  | 81 => ⟨S1, .f32⟩
  | 82 => ⟨S_, .f32⟩
  | 83 => ⟨S_, .i32⟩
  | 84 => ⟨S1, .i32⟩
  | 85 => ⟨S_, .i32⟩
  | 86 => ⟨S1, .i32⟩
  | 87 => ⟨S2, .i32⟩
  | 88 => ⟨S5x5, .f32⟩
  | 89 => ⟨S1, .f32⟩
  | 90 => ⟨S_, .f32⟩
  | 91 => ⟨S_, .i32⟩
  | 92 => ⟨S1, .i32⟩
  | 93 => ⟨S_, .i32⟩
  | 94 => ⟨S1, .i32⟩
  | 95 => ⟨S2, .i32⟩
  | 96 => ⟨S5x5, .f32⟩
  | 97 => ⟨S1, .f32⟩
  | 98 => ⟨S_, .f32⟩
  | 99 => ⟨S_, .i32⟩
  | 100 => ⟨S1, .i32⟩
  | 101 => ⟨S_, .i32⟩
  | 102 => ⟨S1, .i32⟩
  | 103 => ⟨S2, .i32⟩
  | 104 => ⟨S5x5, .f32⟩
  | 105 => ⟨S1, .f32⟩
  | 106 => ⟨S_, .f32⟩
  | 107 => ⟨S_, .i32⟩
  | 108 => ⟨S1, .i32⟩
  | 109 => ⟨S_, .i32⟩
  | 110 => ⟨S1, .i32⟩
  | 111 => ⟨S2, .i32⟩
  | 112 => ⟨S5x5, .f32⟩
  | 113 => ⟨S8192, .i32⟩
  | 114 => ⟨S_, .i32⟩
  | 115 => ⟨S8192, .i32⟩
  | 116 => ⟨S1x1, .i32⟩
  | 117 => ⟨S_, .i32⟩
  | 118 => ⟨S8192, .i32⟩
  | 119 => ⟨S8192, .i1⟩
  | 120 => ⟨S1x1, .i32⟩
  | 121 => ⟨S_, .i32⟩
  | 122 => ⟨S8192, .i32⟩
  | 123 => ⟨S8192, .i1⟩
  | 124 => ⟨S8192, .i1⟩
  | 125 => ⟨S_, .i32⟩
  | 126 => ⟨S8192, .i32⟩
  | 127 => ⟨S8192, .i32⟩
  | _ => ⟨S8192x8, .f32⟩

abbrev hbmTy0_1 (i : Nat) : BufTy := match i % 128 with
  | 0 => ⟨S1x1, .i32⟩
  | 1 => ⟨S_, .i32⟩
  | 2 => ⟨S8192, .i32⟩
  | 3 => ⟨S8192, .i1⟩
  | 4 => ⟨S1x1, .i32⟩
  | 5 => ⟨S_, .i32⟩
  | 6 => ⟨S8192, .i32⟩
  | 7 => ⟨S8192, .i1⟩
  | 8 => ⟨S8192, .i1⟩
  | 9 => ⟨S_, .i32⟩
  | 10 => ⟨S8192, .i32⟩
  | 11 => ⟨S8192, .i32⟩
  | 12 => ⟨S1x1, .i32⟩
  | 13 => ⟨S_, .i32⟩
  | 14 => ⟨S8192, .i32⟩
  | 15 => ⟨S8192, .i1⟩
  | 16 => ⟨S1x1, .i32⟩
  | 17 => ⟨S_, .i32⟩
  | 18 => ⟨S8192, .i32⟩
  | 19 => ⟨S8192, .i1⟩
  | 20 => ⟨S8192, .i1⟩
  | 21 => ⟨S_, .i32⟩
  | 22 => ⟨S8192, .i32⟩
  | 23 => ⟨S8192, .i32⟩
  | 24 => ⟨S1x1, .i32⟩
  | 25 => ⟨S_, .i32⟩
  | 26 => ⟨S8192, .i32⟩
  | 27 => ⟨S8192, .i1⟩
  | 28 => ⟨S1x1, .i32⟩
  | 29 => ⟨S_, .i32⟩
  | 30 => ⟨S8192, .i32⟩
  | 31 => ⟨S8192, .i1⟩
  | 32 => ⟨S8192, .i1⟩
  | 33 => ⟨S_, .i32⟩
  | 34 => ⟨S8192, .i32⟩
  | 35 => ⟨S8192, .i32⟩
  | 36 => ⟨S8192, .i32⟩
  | 37 => ⟨S_, .i32⟩
  | 38 => ⟨S8192, .i32⟩
  | 39 => ⟨S1x1, .i32⟩
  | 40 => ⟨S_, .i32⟩
  | 41 => ⟨S8192, .i32⟩
  | 42 => ⟨S8192, .i1⟩
  | 43 => ⟨S1x1, .i32⟩
  | 44 => ⟨S_, .i32⟩
  | 45 => ⟨S8192, .i32⟩
  | 46 => ⟨S8192, .i1⟩
  | 47 => ⟨S8192, .i1⟩
  | 48 => ⟨S_, .i32⟩
  | 49 => ⟨S8192, .i32⟩
  | 50 => ⟨S8192, .i32⟩
  | 51 => ⟨S1x1, .i32⟩
  | 52 => ⟨S_, .i32⟩
  | 53 => ⟨S8192, .i32⟩
  | 54 => ⟨S8192, .i1⟩
  | 55 => ⟨S1x1, .i32⟩
  | 56 => ⟨S_, .i32⟩
  | 57 => ⟨S8192, .i32⟩
  | 58 => ⟨S8192, .i1⟩
  | 59 => ⟨S8192, .i1⟩
  | 60 => ⟨S_, .i32⟩
  | 61 => ⟨S8192, .i32⟩
  | 62 => ⟨S8192, .i32⟩
  | 63 => ⟨S1x1, .i32⟩
  | 64 => ⟨S_, .i32⟩
  | 65 => ⟨S8192, .i32⟩
  | 66 => ⟨S8192, .i1⟩
  | 67 => ⟨S1x1, .i32⟩
  | 68 => ⟨S_, .i32⟩
  | 69 => ⟨S8192, .i32⟩
  | 70 => ⟨S8192, .i1⟩
  | 71 => ⟨S8192, .i1⟩
  | 72 => ⟨S_, .i32⟩
  | 73 => ⟨S8192, .i32⟩
  | 74 => ⟨S8192, .i32⟩
  | 75 => ⟨S1x1, .i32⟩
  | 76 => ⟨S_, .i32⟩
  | 77 => ⟨S8192, .i32⟩
  | 78 => ⟨S8192, .i1⟩
  | 79 => ⟨S1x1, .i32⟩
  | 80 => ⟨S_, .i32⟩
  | 81 => ⟨S8192, .i32⟩
  | 82 => ⟨S8192, .i1⟩
  | 83 => ⟨S8192, .i1⟩
  | 84 => ⟨S_, .i32⟩
  | 85 => ⟨S8192, .i32⟩
  | 86 => ⟨S8192, .i32⟩
  | 87 => ⟨S8192x1, .i32⟩
  | 88 => ⟨S1x5, .i32⟩
  | 89 => ⟨S8192x5, .i32⟩
  | 90 => ⟨S8192x5, .i32⟩
  | 91 => ⟨S8192x5, .i1⟩
  | 92 => ⟨S8192x5, .f32⟩
  | 93 => ⟨S8192x1, .i32⟩
  | 94 => ⟨S1x5, .i32⟩
  | 95 => ⟨S8192x5, .i32⟩
  | 96 => ⟨S8192x5, .i32⟩
  | 97 => ⟨S8192x5, .i1⟩
  | 98 => ⟨S8192x5, .f32⟩
  | 99 => ⟨S8192x5, .f32⟩
  | 100 => ⟨S8192x5, .f32⟩
  | 101 => ⟨S8192x5, .f32⟩
  | 102 => ⟨S5x8192, .f32⟩
  | 103 => ⟨S_, .f32⟩
  | 104 => ⟨S8192x8, .f32⟩
  | 105 => ⟨S8192x8, .f32⟩
  | 106 => ⟨S8192x8, .f32⟩
  | 107 => ⟨S8192x8, .f32⟩
  | 108 => ⟨S8192x8, .f32⟩
  | 109 => ⟨S_, .f32⟩
  | 110 => ⟨S8192, .f32⟩
  | 111 => ⟨S8192x1, .f32⟩
  | 112 => ⟨S8192x8, .f32⟩
  | 113 => ⟨S_, .f32⟩
  | 114 => ⟨S8192, .f32⟩
  | 115 => ⟨S8192x1, .f32⟩
  | 116 => ⟨S1x8192, .f32⟩
  | 117 => ⟨S1x8192, .f32⟩
  | _ => ⟨S8192x8, .f32⟩

abbrev hbmTy (i : Nat) : BufTy := match i / 128 with
  | 0 => hbmTy0_0 i
  | 1 => hbmTy0_1 i
  | _ => ⟨S8192x8, .f32⟩

abbrev bufTy : (tb : Table) → Fin (tcTables nBuf tb) → BufTy
  | .hbm, ⟨i, _⟩ => hbmTy i
  | .local _ .vmem, ⟨0, _⟩ => ⟨S1024x8, .f32⟩
  | .local _ .vmem, ⟨1, _⟩ => ⟨S1024x8, .f32⟩
  | .local _ .vmem, ⟨2, _⟩ => ⟨S1024x8, .f32⟩
  | .local _ .vmem, ⟨3, _⟩ => ⟨S1024x8, .f32⟩
  | .local _ .vmem, ⟨4, _⟩ => ⟨S1024x5, .f32⟩
  | .local _ .vmem, ⟨5, _⟩ => ⟨S1024x5, .f32⟩
  | .local _ .vmem, ⟨6, _⟩ => ⟨S5x1024, .f32⟩
  | .local _ .vmem, ⟨7, _⟩ => ⟨S5x1024, .f32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_c_10 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_11 : Ref sig .tc := ⟨.hbm, 59, rfl⟩
abbrev main_v39 : Ref sig .tc := ⟨.hbm, 60, rfl⟩
abbrev main_c_12 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_13 : Ref sig .tc := ⟨.hbm, 67, rfl⟩
abbrev main_v45 : Ref sig .tc := ⟨.hbm, 68, rfl⟩
abbrev main_c_14 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_15 : Ref sig .tc := ⟨.hbm, 75, rfl⟩
abbrev main_v51 : Ref sig .tc := ⟨.hbm, 76, rfl⟩
abbrev main_c_16 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_17 : Ref sig .tc := ⟨.hbm, 83, rfl⟩
abbrev main_v57 : Ref sig .tc := ⟨.hbm, 84, rfl⟩
abbrev main_c_18 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_19 : Ref sig .tc := ⟨.hbm, 91, rfl⟩
abbrev main_v63 : Ref sig .tc := ⟨.hbm, 92, rfl⟩
abbrev main_c_20 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_21 : Ref sig .tc := ⟨.hbm, 99, rfl⟩
abbrev main_v69 : Ref sig .tc := ⟨.hbm, 100, rfl⟩
abbrev main_c_22 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_23 : Ref sig .tc := ⟨.hbm, 107, rfl⟩
abbrev main_v75 : Ref sig .tc := ⟨.hbm, 108, rfl⟩
abbrev main_c_24 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_25 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_26 : Ref sig .tc := ⟨.hbm, 125, rfl⟩
abbrev main_call0_v0 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_27 : Ref sig .tc := ⟨.hbm, 137, rfl⟩
abbrev main_call1_v0 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_28 : Ref sig .tc := ⟨.hbm, 149, rfl⟩
abbrev main_call2_v0 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_29 : Ref sig .tc := ⟨.hbm, 161, rfl⟩
abbrev main_call3_v0 : Ref sig .tc := ⟨.hbm, 162, rfl⟩
abbrev main_v120 : Ref sig .tc := ⟨.hbm, 163, rfl⟩
abbrev main_v121 : Ref sig .tc := ⟨.hbm, 164, rfl⟩
abbrev main_c_30 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_c_31 : Ref sig .tc := ⟨.hbm, 176, rfl⟩
abbrev main_call4_v0 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_c_32 : Ref sig .tc := ⟨.hbm, 188, rfl⟩
abbrev main_call5_v0 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_c_33 : Ref sig .tc := ⟨.hbm, 200, rfl⟩
abbrev main_call6_v0 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_c_34 : Ref sig .tc := ⟨.hbm, 212, rfl⟩
abbrev main_call7_v0 : Ref sig .tc := ⟨.hbm, 213, rfl⟩
abbrev main_v162 : Ref sig .tc := ⟨.hbm, 214, rfl⟩
abbrev main_call8_v0 : Ref sig .tc := ⟨.hbm, 215, rfl⟩
abbrev main_call8_v1 : Ref sig .tc := ⟨.hbm, 216, rfl⟩
abbrev main_call8_v2 : Ref sig .tc := ⟨.hbm, 217, rfl⟩
abbrev main_call8_v3 : Ref sig .tc := ⟨.hbm, 218, rfl⟩
abbrev main_call8_v4 : Ref sig .tc := ⟨.hbm, 219, rfl⟩
abbrev main_v163 : Ref sig .tc := ⟨.hbm, 220, rfl⟩
abbrev main_call9_v0 : Ref sig .tc := ⟨.hbm, 221, rfl⟩
abbrev main_call9_v1 : Ref sig .tc := ⟨.hbm, 222, rfl⟩
abbrev main_call9_v2 : Ref sig .tc := ⟨.hbm, 223, rfl⟩
abbrev main_call9_v3 : Ref sig .tc := ⟨.hbm, 224, rfl⟩
abbrev main_call9_v4 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_35 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_cst_36 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S5x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S6 : S_.BroadcastsInDim S6 (![] : Fin 0 → Fin S6.rank)
  bcast_S_S5x5 : S_.BroadcastsInDim S5x5 (![] : Fin 0 → Fin S5x5.rank)
  slices_S6_S1_0 : S6.Slices ![0] S1
  shapeCasts_S1_S_ : S1.ShapeCasts S_
  bcast_S_S1 : S_.BroadcastsInDim S1 (![] : Fin 0 → Fin S1.rank)
  concatenates_S1_S1_S2_d0 : Shape.Concatenates [S1, S1] S2 0
  slices_S6_S1_1 : S6.Slices ![1] S1
  slices_S6_S1_2 : S6.Slices ![2] S1
  slices_S6_S1_3 : S6.Slices ![3] S1
  slices_S6_S1_4 : S6.Slices ![4] S1
  slices_S6_S1_5 : S6.Slices ![5] S1
  bcast_S_S8192 : S_.BroadcastsInDim S8192 (![] : Fin 0 → Fin S8192.rank)
  slices_S4x2_S1x1_0_0 : S4x2.Slices ![0, 0] S1x1
  shapeCasts_S1x1_S_ : S1x1.ShapeCasts S_
  slices_S4x2_S1x1_0_1 : S4x2.Slices ![0, 1] S1x1
  slices_S4x2_S1x1_1_0 : S4x2.Slices ![1, 0] S1x1
  slices_S4x2_S1x1_1_1 : S4x2.Slices ![1, 1] S1x1
  slices_S4x2_S1x1_2_0 : S4x2.Slices ![2, 0] S1x1
  slices_S4x2_S1x1_2_1 : S4x2.Slices ![2, 1] S1x1
  slices_S4x2_S1x1_3_0 : S4x2.Slices ![3, 0] S1x1
  slices_S4x2_S1x1_3_1 : S4x2.Slices ![3, 1] S1x1
  bcast_S8192_S8192x1_0 : S8192.BroadcastsInDim S8192x1 (![0] : Fin 1 → Fin S8192x1.rank)
  bcast_S8192x1_S8192x5_0_1 : S8192x1.BroadcastsInDim S8192x5 (![0, 1] : Fin 2 → Fin S8192x5.rank)
  bcast_S1x5_S8192x5_0_1 : S1x5.BroadcastsInDim S8192x5 (![0, 1] : Fin 2 → Fin S8192x5.rank)
  transposes_S8192x5_S5x8192_1_0 : S8192x5.Transposes [1, 0] S5x8192
  bcast_S_S8192x8 : S_.BroadcastsInDim S8192x8 (![] : Fin 0 → Fin S8192x8.rank)
  reducesTo_S8192x8_S8192_d1 : S8192x8.ReducesTo [1] S8192
  h_S_ : 0 < S_.numel
  transposes_S8192x1_S1x8192_1_0 : S8192x1.Transposes [1, 0] S1x8192
  inb_S1x1024_S1x1024_0_0 : ∀ a, (![0, 0] : Fin 2 → Nat) a + S1x1024.size a ≤ S1x1024.size a
  h_S1x1024 : 0 < S1x1024.numel
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x5_S1024x5_0_0 : ∀ a, (![0, 0] : Fin 2 → Nat) a + S1024x5.size a ≤ S1024x5.size a
  h_S1024x5 : 0 < S1024x5.numel
  shapeCasts_S1024x5_S1024x5 : S1024x5.ShapeCasts S1024x5
  inb_S5x1024_S5x1024_0_0 : ∀ a, (![0, 0] : Fin 2 → Nat) a + S5x1024.size a ≤ S5x1024.size a
  h_S5x1024 : 0 < S5x1024.numel
  shapeCasts_S5x1024_S5x1024 : S5x1024.ShapeCasts S5x1024
  reduces_S5x1024_S1024 : S5x1024.Reduces [0] S1024
  shapeCasts_S1024_S1x1024 : S1024.ShapeCasts S1x1024
  scatter_S5x5_S2_S__n_01_01_0_wf : ScatterDims.WF S5x5 S2 S_ [] [0, 1] [0, 1] 0
  dot_S8192x5_S5x5_S8192x5_1_0_0_1_n_n_wf : DotDims.WF S8192x5 S5x5 S8192x5 [1] [0] [0] [1] [] []
  dot_S1024x8_S1024x8_S1024x1024_1_1_0_0_n_n_wf : DotDims.WF S1024x8 S1024x8 S1024x1024 [1] [1] [0] [0] [] []
  dot_S1024x5_S1024x1024_S5x1024_0_0_1_1_n_n_wf : DotDims.WF S1024x5 S1024x1024 S5x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S8192x8.size a
  hwx0_0 : ∀ i : grid0.Coords, EltTy.bits .f32 = 32 ∨ (Rect.block (s := S8192x8) S1024x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S8192x8.size a
  hwx0_1 : ∀ i : grid0.Coords, EltTy.bits .f32 = 32 ∨ (Rect.block (s := S8192x8) S1024x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x5.size a ≤ S8192x5.size a
  hwx0_2 : ∀ i : grid0.Coords, EltTy.bits .f32 = 32 ∨ (Rect.block (s := S8192x5) S1024x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5x1024.size a ≤ S5x8192.size a
  hwx0_3 : ∀ i : grid0.Coords, EltTy.bits .f32 = 32 ∨ (Rect.block (s := S5x8192) S5x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)

variable [Facts₀]

def scatter_S5x5_S2_S__n_01_01_0 : ScatterDims S5x5 S2 S_ where
  updateWindowDims := []
  insertedWindowDims := [0, 1]
  scatterDimsToOperandDims := [0, 1]
  indexVectorDim := 0
  wf := scatter_S5x5_S2_S__n_01_01_0_wf
def dot_S8192x5_S5x5_S8192x5_1_0_0_1_n_n : DotDims S8192x5 S5x5 S8192x5 where
  lhsContracting := [1]
  rhsContracting := [0]
  lhsNonContracting := [0]
  rhsNonContracting := [1]
  lhsBatch := []
  rhsBatch := []
  wf := dot_S8192x5_S5x5_S8192x5_1_0_0_1_n_n_wf
def dot_S1024x8_S1024x8_S1024x1024_1_1_0_0_n_n : DotDims S1024x8 S1024x8 S1024x1024 where
  lhsContracting := [1]
  rhsContracting := [1]
  lhsNonContracting := [0]
  rhsNonContracting := [0]
  lhsBatch := []
  rhsBatch := []
  wf := dot_S1024x8_S1024x8_S1024x1024_1_1_0_0_n_n_wf
def dot_S1024x5_S1024x1024_S5x1024_0_0_1_1_n_n : DotDims S1024x5 S1024x1024 S5x1024 where
  lhsContracting := [0]
  rhsContracting := [0]
  lhsNonContracting := [1]
  rhsNonContracting := [1]
  lhsBatch := []
  rhsBatch := []
  wf := dot_S1024x5_S1024x1024_S5x1024_0_0_1_1_n_n_wf

abbrev win0_0 : Pipeline.Window sig grid0 :=
  Pipeline.Window.ofSpec (Memref.whole main_v171) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v173) S1024x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v167) S1024x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v168) S5x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v176) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v180) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v181) S1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x8 : Shape := ⟨2, ![8192, 8]⟩
abbrev S8192x1 : Shape := ⟨2, ![8192, 1]⟩
abbrev S6 : Shape := ⟨1, ![6]⟩
abbrev S1 : Shape := ⟨1, ![1]⟩
abbrev S4x2 : Shape := ⟨2, ![4, 2]⟩
abbrev S_ : Shape := ⟨0, ![]⟩
abbrev S1x1 : Shape := ⟨2, ![1, 1]⟩
abbrev S8192 : Shape := ⟨1, ![8192]⟩
abbrev S1x8192 : Shape := ⟨2, ![1, 8192]⟩
abbrev S8192x8192 : Shape := ⟨2, ![8192, 8192]⟩
abbrev S8x8192 : Shape := ⟨2, ![8, 8192]⟩
abbrev S5x5 : Shape := ⟨2, ![5, 5]⟩
abbrev S2 : Shape := ⟨1, ![2]⟩
abbrev S8192x5 : Shape := ⟨2, ![8192, 5]⟩

abbrev nBuf : Space → Nat
  | .hbm => 277
  | .vmem => 0
  | .smem => 0
  | _ => 0

abbrev hbmTy0_0 (i : Nat) : BufTy := match i % 128 with
  | 0 => ⟨S8192x8, .f32⟩
  | 1 => ⟨S8192x8, .f32⟩
  | 2 => ⟨S8192x1, .f32⟩
  | 3 => ⟨S6, .f32⟩
  | 4 => ⟨S1, .f32⟩
  | 5 => ⟨S4x2, .i32⟩
  | 6 => ⟨S4x2, .i32⟩
  | 7 => ⟨S6, .f32⟩
  | 8 => ⟨S6, .f32⟩
  | 9 => ⟨S_, .f32⟩
  | 10 => ⟨S6, .f32⟩
  | 11 => ⟨S6, .f32⟩
  | 12 => ⟨S_, .f32⟩
  | 13 => ⟨S6, .f32⟩
  | 14 => ⟨S6, .f32⟩
  | 15 => ⟨S1x1, .f32⟩
  | 16 => ⟨S8192x8, .f32⟩
  | 17 => ⟨S8192x8, .f32⟩
  | 18 => ⟨S1x1, .f32⟩
  | 19 => ⟨S8192x8, .f32⟩
  | 20 => ⟨S8192x8, .f32⟩
  | 21 => ⟨S8192x8, .f32⟩
  | 22 => ⟨S_, .f32⟩
  | 23 => ⟨S8192, .f32⟩
  | 24 => ⟨S8192x1, .f32⟩
  | 25 => ⟨S8192x8, .f32⟩
  | 26 => ⟨S_, .f32⟩
  | 27 => ⟨S8192, .f32⟩
  | 28 => ⟨S1x8192, .f32⟩
  | 29 => ⟨S8192x8192, .f32⟩
  | 30 => ⟨S8192x8192, .f32⟩
  | 31 => ⟨S8192x8192, .f32⟩
  | 32 => ⟨S_, .f32⟩
  | 33 => ⟨S8192x8, .f32⟩
  | 34 => ⟨S8192x8, .f32⟩
  | 35 => ⟨S8x8192, .f32⟩
  | 36 => ⟨S8192x8192, .f32⟩
  | 37 => ⟨S8192x8192, .f32⟩
  | 38 => ⟨S_, .f32⟩
  | 39 => ⟨S8192x8192, .f32⟩
  | 40 => ⟨S8192x8192, .f32⟩
  | 41 => ⟨S8192x8192, .f32⟩
  | 42 => ⟨S_, .f32⟩
  | 43 => ⟨S8192x8192, .f32⟩
  | 44 => ⟨S8192x8192, .f32⟩
  | 45 => ⟨S_, .f32⟩
  | 46 => ⟨S8192x8192, .f32⟩
  | 47 => ⟨S8192x8192, .f32⟩
  | 48 => ⟨S8192x8192, .f32⟩
  | 49 => ⟨S_, .f32⟩
  | 50 => ⟨S8192x8192, .f32⟩
  | 51 => ⟨S8192x8192, .f32⟩
  | 52 => ⟨S8192x8192, .f32⟩
  | 53 => ⟨S8192x8192, .f32⟩
  | 54 => ⟨S8192x8192, .f32⟩
  | 55 => ⟨S8192x8192, .f32⟩
  | 56 => ⟨S_, .f32⟩
  | 57 => ⟨S5x5, .f32⟩
  | 58 => ⟨S1, .f32⟩
  | 59 => ⟨S_, .f32⟩
  | 60 => ⟨S_, .i32⟩
  | 61 => ⟨S1, .i32⟩
  | 62 => ⟨S_, .i32⟩
  | 63 => ⟨S1, .i32⟩
  | 64 => ⟨S2, .i32⟩
  | 65 => ⟨S5x5, .f32⟩
  | 66 => ⟨S1, .f32⟩
  | 67 => ⟨S_, .f32⟩
  | 68 => ⟨S_, .i32⟩
  | 69 => ⟨S1, .i32⟩
  | 70 => ⟨S_, .i32⟩
  | 71 => ⟨S1, .i32⟩
  | 72 => ⟨S2, .i32⟩
  | 73 => ⟨S5x5, .f32⟩
  | 74 => ⟨S1, .f32⟩
  | 75 => ⟨S_, .f32⟩
  | 76 => ⟨S_, .i32⟩
  | 77 => ⟨S1, .i32⟩
  | 78 => ⟨S_, .i32⟩
  | 79 => ⟨S1, .i32⟩
  | 80 => ⟨S2, .i32⟩
  | 81 => ⟨S5x5, .f32⟩
  | 82 => ⟨S1, .f32⟩
  | 83 => ⟨S_, .f32⟩
  | 84 => ⟨S_, .i32⟩
  | 85 => ⟨S1, .i32⟩
  | 86 => ⟨S_, .i32⟩
  | 87 => ⟨S1, .i32⟩
  | 88 => ⟨S2, .i32⟩
  | 89 => ⟨S5x5, .f32⟩
  | 90 => ⟨S1, .f32⟩
  | 91 => ⟨S_, .f32⟩
  | 92 => ⟨S_, .i32⟩
  | 93 => ⟨S1, .i32⟩
  | 94 => ⟨S_, .i32⟩
  | 95 => ⟨S1, .i32⟩
  | 96 => ⟨S2, .i32⟩
  | 97 => ⟨S5x5, .f32⟩
  | 98 => ⟨S1, .f32⟩
  | 99 => ⟨S_, .f32⟩
  | 100 => ⟨S_, .i32⟩
  | 101 => ⟨S1, .i32⟩
  | 102 => ⟨S_, .i32⟩
  | 103 => ⟨S1, .i32⟩
  | 104 => ⟨S2, .i32⟩
  | 105 => ⟨S5x5, .f32⟩
  | 106 => ⟨S1, .f32⟩
  | 107 => ⟨S_, .f32⟩
  | 108 => ⟨S_, .i32⟩
  | 109 => ⟨S1, .i32⟩
  | 110 => ⟨S_, .i32⟩
  | 111 => ⟨S1, .i32⟩
  | 112 => ⟨S2, .i32⟩
  | 113 => ⟨S5x5, .f32⟩
  | 114 => ⟨S1, .f32⟩
  | 115 => ⟨S_, .f32⟩
  | 116 => ⟨S_, .i32⟩
  | 117 => ⟨S1, .i32⟩
  | 118 => ⟨S_, .i32⟩
  | 119 => ⟨S1, .i32⟩
  | 120 => ⟨S2, .i32⟩
  | 121 => ⟨S5x5, .f32⟩
  | 122 => ⟨S1, .f32⟩
  | 123 => ⟨S_, .f32⟩
  | 124 => ⟨S_, .i32⟩
  | 125 => ⟨S1, .i32⟩
  | 126 => ⟨S_, .i32⟩
  | 127 => ⟨S1, .i32⟩
  | _ => ⟨S8192x8, .f32⟩

abbrev hbmTy0_1 (i : Nat) : BufTy := match i % 128 with
  | 0 => ⟨S2, .i32⟩
  | 1 => ⟨S5x5, .f32⟩
  | 2 => ⟨S1, .f32⟩
  | 3 => ⟨S_, .f32⟩
  | 4 => ⟨S_, .i32⟩
  | 5 => ⟨S1, .i32⟩
  | 6 => ⟨S_, .i32⟩
  | 7 => ⟨S1, .i32⟩
  | 8 => ⟨S2, .i32⟩
  | 9 => ⟨S5x5, .f32⟩
  | 10 => ⟨S1, .f32⟩
  | 11 => ⟨S_, .f32⟩
  | 12 => ⟨S_, .i32⟩
  | 13 => ⟨S1, .i32⟩
  | 14 => ⟨S_, .i32⟩
  | 15 => ⟨S1, .i32⟩
  | 16 => ⟨S2, .i32⟩
  | 17 => ⟨S5x5, .f32⟩
  | 18 => ⟨S1, .f32⟩
  | 19 => ⟨S_, .f32⟩
  | 20 => ⟨S_, .i32⟩
  | 21 => ⟨S1, .i32⟩
  | 22 => ⟨S_, .i32⟩
  | 23 => ⟨S1, .i32⟩
  | 24 => ⟨S2, .i32⟩
  | 25 => ⟨S5x5, .f32⟩
  | 26 => ⟨S8192, .i32⟩
  | 27 => ⟨S_, .i32⟩
  | 28 => ⟨S8192, .i32⟩
  | 29 => ⟨S1x1, .i32⟩
  | 30 => ⟨S_, .i32⟩
  | 31 => ⟨S8192, .i32⟩
  | 32 => ⟨S8192, .i1⟩
  | 33 => ⟨S1x1, .i32⟩
  | 34 => ⟨S_, .i32⟩
  | 35 => ⟨S8192, .i32⟩
  | 36 => ⟨S8192, .i1⟩
  | 37 => ⟨S8192, .i1⟩
  | 38 => ⟨S_, .i32⟩
  | 39 => ⟨S8192, .i32⟩
  | 40 => ⟨S8192, .i32⟩
  | 41 => ⟨S1x1, .i32⟩
  | 42 => ⟨S_, .i32⟩
  | 43 => ⟨S8192, .i32⟩
  | 44 => ⟨S8192, .i1⟩
  | 45 => ⟨S1x1, .i32⟩
  | 46 => ⟨S_, .i32⟩
  | 47 => ⟨S8192, .i32⟩
  | 48 => ⟨S8192, .i1⟩
  | 49 => ⟨S8192, .i1⟩
  | 50 => ⟨S_, .i32⟩
  | 51 => ⟨S8192, .i32⟩
  | 52 => ⟨S8192, .i32⟩
  | 53 => ⟨S1x1, .i32⟩
  | 54 => ⟨S_, .i32⟩
  | 55 => ⟨S8192, .i32⟩
  | 56 => ⟨S8192, .i1⟩
  | 57 => ⟨S1x1, .i32⟩
  | 58 => ⟨S_, .i32⟩
  | 59 => ⟨S8192, .i32⟩
  | 60 => ⟨S8192, .i1⟩
  | 61 => ⟨S8192, .i1⟩
  | 62 => ⟨S_, .i32⟩
  | 63 => ⟨S8192, .i32⟩
  | 64 => ⟨S8192, .i32⟩
  | 65 => ⟨S1x1, .i32⟩
  | 66 => ⟨S_, .i32⟩
  | 67 => ⟨S8192, .i32⟩
  | 68 => ⟨S8192, .i1⟩
  | 69 => ⟨S1x1, .i32⟩
  | 70 => ⟨S_, .i32⟩
  | 71 => ⟨S8192, .i32⟩
  | 72 => ⟨S8192, .i1⟩
  | 73 => ⟨S8192, .i1⟩
  | 74 => ⟨S_, .i32⟩
  | 75 => ⟨S8192, .i32⟩
  | 76 => ⟨S8192, .i32⟩
  | 77 => ⟨S8192, .i32⟩
  | 78 => ⟨S_, .i32⟩
  | 79 => ⟨S8192, .i32⟩
  | 80 => ⟨S1x1, .i32⟩
  | 81 => ⟨S_, .i32⟩
  | 82 => ⟨S8192, .i32⟩
  | 83 => ⟨S8192, .i1⟩
  | 84 => ⟨S1x1, .i32⟩
  | 85 => ⟨S_, .i32⟩
  | 86 => ⟨S8192, .i32⟩
  | 87 => ⟨S8192, .i1⟩
  | 88 => ⟨S8192, .i1⟩
  | 89 => ⟨S_, .i32⟩
  | 90 => ⟨S8192, .i32⟩
  | 91 => ⟨S8192, .i32⟩
  | 92 => ⟨S1x1, .i32⟩
  | 93 => ⟨S_, .i32⟩
  | 94 => ⟨S8192, .i32⟩
  | 95 => ⟨S8192, .i1⟩
  | 96 => ⟨S1x1, .i32⟩
  | 97 => ⟨S_, .i32⟩
  | 98 => ⟨S8192, .i32⟩
  | 99 => ⟨S8192, .i1⟩
  | 100 => ⟨S8192, .i1⟩
  | 101 => ⟨S_, .i32⟩
  | 102 => ⟨S8192, .i32⟩
  | 103 => ⟨S8192, .i32⟩
  | 104 => ⟨S1x1, .i32⟩
  | 105 => ⟨S_, .i32⟩
  | 106 => ⟨S8192, .i32⟩
  | 107 => ⟨S8192, .i1⟩
  | 108 => ⟨S1x1, .i32⟩
  | 109 => ⟨S_, .i32⟩
  | 110 => ⟨S8192, .i32⟩
  | 111 => ⟨S8192, .i1⟩
  | 112 => ⟨S8192, .i1⟩
  | 113 => ⟨S_, .i32⟩
  | 114 => ⟨S8192, .i32⟩
  | 115 => ⟨S8192, .i32⟩
  | 116 => ⟨S1x1, .i32⟩
  | 117 => ⟨S_, .i32⟩
  | 118 => ⟨S8192, .i32⟩
  | 119 => ⟨S8192, .i1⟩
  | 120 => ⟨S1x1, .i32⟩
  | 121 => ⟨S_, .i32⟩
  | 122 => ⟨S8192, .i32⟩
  | 123 => ⟨S8192, .i1⟩
  | 124 => ⟨S8192, .i1⟩
  | 125 => ⟨S_, .i32⟩
  | 126 => ⟨S8192, .i32⟩
  | 127 => ⟨S8192, .i32⟩
  | _ => ⟨S8192x8, .f32⟩

abbrev hbmTy0_2 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S8192x5, .f32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192x8192, .f32⟩
  | 18 => ⟨S8192x8192, .f32⟩
  | 19 => ⟨S1x8192, .f32⟩
  | 20 => ⟨S1x8192, .f32⟩
  | _ => ⟨S8192x8, .f32⟩

abbrev hbmTy (i : Nat) : BufTy := match i / 128 with
  | 0 => hbmTy0_0 i
  | 1 => hbmTy0_1 i
  | 2 => hbmTy0_2 i
  | _ => ⟨S8192x8, .f32⟩

abbrev bufTy : (tb : Table) → Fin (tcTables nBuf tb) → BufTy
  | .hbm, ⟨i, _⟩ => hbmTy i
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_c_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_12 : Ref sig .tc := ⟨.hbm, 76, rfl⟩
abbrev main_v55 : Ref sig .tc := ⟨.hbm, 77, rfl⟩
abbrev main_c_13 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_c_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_16 : Ref sig .tc := ⟨.hbm, 92, rfl⟩
abbrev main_v67 : Ref sig .tc := ⟨.hbm, 93, rfl⟩
abbrev main_c_17 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_18 : Ref sig .tc := ⟨.hbm, 100, rfl⟩
abbrev main_v73 : Ref sig .tc := ⟨.hbm, 101, rfl⟩
abbrev main_c_19 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_20 : Ref sig .tc := ⟨.hbm, 108, rfl⟩
abbrev main_v79 : Ref sig .tc := ⟨.hbm, 109, rfl⟩
abbrev main_c_21 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_22 : Ref sig .tc := ⟨.hbm, 116, rfl⟩
abbrev main_v85 : Ref sig .tc := ⟨.hbm, 117, rfl⟩
abbrev main_c_23 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_24 : Ref sig .tc := ⟨.hbm, 124, rfl⟩
abbrev main_v91 : Ref sig .tc := ⟨.hbm, 125, rfl⟩
abbrev main_c_25 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_26 : Ref sig .tc := ⟨.hbm, 132, rfl⟩
abbrev main_v97 : Ref sig .tc := ⟨.hbm, 133, rfl⟩
abbrev main_c_27 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_28 : Ref sig .tc := ⟨.hbm, 140, rfl⟩
abbrev main_v103 : Ref sig .tc := ⟨.hbm, 141, rfl⟩
abbrev main_c_29 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_30 : Ref sig .tc := ⟨.hbm, 148, rfl⟩
abbrev main_v109 : Ref sig .tc := ⟨.hbm, 149, rfl⟩
abbrev main_c_31 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_c_32 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_c_33 : Ref sig .tc := ⟨.hbm, 166, rfl⟩
abbrev main_call0_v0 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_c_34 : Ref sig .tc := ⟨.hbm, 178, rfl⟩
abbrev main_call1_v0 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_c_35 : Ref sig .tc := ⟨.hbm, 190, rfl⟩
abbrev main_call2_v0 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_c_36 : Ref sig .tc := ⟨.hbm, 202, rfl⟩
abbrev main_call3_v0 : Ref sig .tc := ⟨.hbm, 203, rfl⟩
abbrev main_v154 : Ref sig .tc := ⟨.hbm, 204, rfl⟩
abbrev main_v155 : Ref sig .tc := ⟨.hbm, 205, rfl⟩
abbrev main_c_37 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_c_38 : Ref sig .tc := ⟨.hbm, 217, rfl⟩
abbrev main_call4_v0 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_c_39 : Ref sig .tc := ⟨.hbm, 229, rfl⟩
abbrev main_call5_v0 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_c_40 : Ref sig .tc := ⟨.hbm, 241, rfl⟩
abbrev main_call6_v0 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_c_41 : Ref sig .tc := ⟨.hbm, 253, rfl⟩
abbrev main_call7_v0 : Ref sig .tc := ⟨.hbm, 254, rfl⟩
abbrev main_v196 : Ref sig .tc := ⟨.hbm, 255, rfl⟩
abbrev main_c_42 : Ref sig .tc := ⟨.hbm, 256, rfl⟩
abbrev main_v197 : Ref sig .tc := ⟨.hbm, 257, rfl⟩
abbrev main_v198 : Ref sig .tc := ⟨.hbm, 258, rfl⟩
abbrev main_c_43 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_c_44 : Ref sig .tc := ⟨.hbm, 265, rfl⟩
abbrev main_v204 : Ref sig .tc := ⟨.hbm, 266, rfl⟩
abbrev main_v205 : Ref sig .tc := ⟨.hbm, 267, rfl⟩
abbrev main_c_45 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩

abbrev nD : Nat := 1
abbrev τ : Topo := Topo.v7x

variable {F : FTy → Type} [FloatOps F]

class Facts₀ : Prop where
  bcast_S_S6 : S_.BroadcastsInDim S6 (![] : Fin 0 → Fin S6.rank)
  bcast_S1_S1x1_1 : S1.BroadcastsInDim S1x1 (![1] : Fin 1 → Fin S1x1.rank)
  bcast_S1x1_S8192x8_0_1 : S1x1.BroadcastsInDim S8192x8 (![0, 1] : Fin 2 → Fin S8192x8.rank)
  reducesTo_S8192x8_S8192_d1 : S8192x8.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8 : S_.BroadcastsInDim S8192x8 (![] : Fin 0 → Fin S8192x8.rank)
  transposes_S8192x8_S8x8192_1_0 : S8192x8.Transposes [1, 0] S8x8192
  bcast_S_S8192x8192 : S_.BroadcastsInDim S8192x8192 (![] : Fin 0 → Fin S8192x8192.rank)
  bcast_S_S5x5 : S_.BroadcastsInDim S5x5 (![] : Fin 0 → Fin S5x5.rank)
  slices_S6_S1_0 : S6.Slices ![0] S1
  shapeCasts_S1_S_ : S1.ShapeCasts S_
  bcast_S_S1 : S_.BroadcastsInDim S1 (![] : Fin 0 → Fin S1.rank)
  concatenates_S1_S1_S2_d0 : Shape.Concatenates [S1, S1] S2 0
  slices_S6_S1_1 : S6.Slices ![1] S1
  slices_S6_S1_2 : S6.Slices ![2] S1
  slices_S6_S1_3 : S6.Slices ![3] S1
  slices_S6_S1_4 : S6.Slices ![4] S1
  slices_S6_S1_5 : S6.Slices ![5] S1
  bcast_S_S8192 : S_.BroadcastsInDim S8192 (![] : Fin 0 → Fin S8192.rank)
  slices_S4x2_S1x1_0_0 : S4x2.Slices ![0, 0] S1x1
  shapeCasts_S1x1_S_ : S1x1.ShapeCasts S_
  slices_S4x2_S1x1_0_1 : S4x2.Slices ![0, 1] S1x1
  slices_S4x2_S1x1_1_0 : S4x2.Slices ![1, 0] S1x1
  slices_S4x2_S1x1_1_1 : S4x2.Slices ![1, 1] S1x1
  slices_S4x2_S1x1_2_0 : S4x2.Slices ![2, 0] S1x1
  slices_S4x2_S1x1_2_1 : S4x2.Slices ![2, 1] S1x1
  slices_S4x2_S1x1_3_0 : S4x2.Slices ![3, 0] S1x1
  slices_S4x2_S1x1_3_1 : S4x2.Slices ![3, 1] S1x1
  transposes_S8192x1_S1x8192_1_0 : S8192x1.Transposes [1, 0] S1x8192
  dot_S8192x8_S8x8192_S8192x8192_1_0_0_1_n_n_wf : DotDims.WF S8192x8 S8x8192 S8192x8192 [1] [0] [0] [1] [] []
  scatter_S5x5_S2_S__n_01_01_0_wf : ScatterDims.WF S5x5 S2 S_ [] [0, 1] [0, 1] 0
  gather_S5x5_S8192x1_S8192x5_1_0_n_n_0_1_15_wf : GatherDims.WF S5x5 S8192x1 S8192x5 [1] [0] [] [0] [] 1 ![1, 5]
  gather_S8192x5_S8192x1_S8192x8192_0_1_n_n_1_1_81921_wf : GatherDims.WF S8192x5 S8192x1 S8192x8192 [0] [1] [] [1] [] 1 ![8192, 1]
  dot_S1x8192_S8192x8192_S1x8192_1_0_0_1_n_n_wf : DotDims.WF S1x8192 S8192x8192 S1x8192 [1] [0] [0] [1] [] []

variable [Facts₀]

def dot_S8192x8_S8x8192_S8192x8192_1_0_0_1_n_n : DotDims S8192x8 S8x8192 S8192x8192 where
  lhsContracting := [1]
  rhsContracting := [0]
  lhsNonContracting := [0]
  rhsNonContracting := [1]
  lhsBatch := []
  rhsBatch := []
  wf := dot_S8192x8_S8x8192_S8192x8192_1_0_0_1_n_n_wf
def scatter_S5x5_S2_S__n_01_01_0 : ScatterDims S5x5 S2 S_ where
  updateWindowDims := []
  insertedWindowDims := [0, 1]
  scatterDimsToOperandDims := [0, 1]
  indexVectorDim := 0
  wf := scatter_S5x5_S2_S__n_01_01_0_wf
def gather_S5x5_S8192x1_S8192x5_1_0_n_n_0_1_15 : GatherDims S5x5 S8192x1 S8192x5 where
  offsetDims := [1]
  collapsedSliceDims := [0]
  operandBatchingDims := []
  startIndicesBatchingDims := []
  startIndexMap := [0]
  indexVectorDim := 1
  sliceSizes := ![1, 5]
  wf := gather_S5x5_S8192x1_S8192x5_1_0_n_n_0_1_15_wf
def gather_S8192x5_S8192x1_S8192x8192_0_1_n_n_1_1_81921 : GatherDims S8192x5 S8192x1 S8192x8192 where
  offsetDims := [0]
  collapsedSliceDims := [1]
  operandBatchingDims := []
  startIndicesBatchingDims := []
  startIndexMap := [1]
  indexVectorDim := 1
  sliceSizes := ![8192, 1]
  wf := gather_S8192x5_S8192x1_S8192x8192_0_1_n_n_1_1_81921_wf
def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf

class Facts : Prop extends Facts₀ where

variable [Facts]
-- ==== Proof.Matern.lean ====
/-
  The scalar law behind the two spellings of the Matérn-5/2 argument, over the extended reals.

  With c the real the word 0x400F1BBD denotes (the single-precision rounding of √5) and e the real the word
  0x2B8CBCCC denotes (the single-precision rounding of 10⁻¹²), one program forms  s = c · √(max q e)  and the other
  s = √(max (c² · q) (c² · e)).  Since c > 0, multiplication by c² is monotone, so  max (c²·q) (c²·e) = c² · max q e,
  and since  max q e ≥ e > 0  is either a positive real or +∞,  √(c² · y) = c · √y  there.  No finiteness of q is used:
  q = −∞ and q = +∞ are two of the three cases.
-/
import Idealize.ShloMosaic.PureOps.Ideal

noncomputable section

namespace Cert.Matern

open Idealize.ShloMosaic

/-- The rounding of √5 to single precision, as a real: 9378749 / 2²². -/
def cR : ℝ := 9378749 / 4194304

/-- The rounding of 10⁻¹² to single precision, as a real: 2305843 / 2⁶¹. -/
def eR : ℝ := 2305843 / 2305843009213693952

theorem cR_pos : 0 < cR := by unfold cR; norm_num
theorem eR_pos : 0 < eR := by unfold eR; norm_num

/-- The word 0x400F1BBD denotes cR. -/
theorem ofBits_sqrt5 : Ideal.ofBits .f32 0x400F1BBD#32 = ((cR : ℝ) : EReal) := by
  simp [Ideal.ofBits, Ideal.ieee, -EReal.coe_mul, cR]; norm_num

/-- The word 0x2B8CBCCC denotes eR. -/
theorem ofBits_eps : Ideal.ofBits .f32 0x2B8CBCCC#32 = ((eR : ℝ) : EReal) := by
  simp [Ideal.ofBits, Ideal.ieee, -EReal.coe_mul, eR]; norm_num

/-- The word of 2.0 denotes the real 2. -/
theorem ofBits_two : Ideal.ofBits .f32 0x40000000#32 = ((2 : ℝ) : EReal) := by
  simp [Ideal.ofBits, Ideal.ieee, -EReal.coe_mul]; norm_num

/-- The word of +0.0 denotes 0. -/
theorem ofBits_zero : Ideal.ofBits .f32 0x00000000#32 = 0 := by
  simp [Ideal.ofBits, Ideal.ieee]

/-- c² as the fraction the other program's constant is read as. -/
theorem sq_c : (87960932805001 / 17592186044416 : ℝ) = cR * cR := by unfold cR; norm_num

/-- c² · e as the fraction the other program's clamp is read as. -/
theorem sq_c_e : (202824101181881920843 / 40564819207303340847894502572032 : ℝ) = cR * cR * eR := by
  unfold cR eR; norm_num

/-- The coercion of the reals into the extended reals is monotone, so it commutes with max. -/
theorem coe_max' (a b : ℝ) : ((max a b : ℝ) : EReal) = max (a : EReal) (b : EReal) :=
  Monotone.map_max (f := fun x : ℝ => (x : EReal)) (fun _ _ h => EReal.coe_le_coe_iff.2 h)

/-- √(max (c²·q) (c²·e)) = c · √(max q e) for every extended real q. -/
theorem sqrt_scaled (q : EReal) :
    Ideal.sqrt (max (((87960932805001 / 17592186044416 : ℝ) : EReal) * q)
        ((202824101181881920843 / 40564819207303340847894502572032 : ℝ) : EReal))
      = ((cR : ℝ) : EReal) * Ideal.sqrt (max q ((eR : ℝ) : EReal)) := by
  rw [sq_c, sq_c_e]
  have hc := cR_pos
  have he := eR_pos
  have hcc : 0 < cR * cR := mul_pos hc hc
  have hsq : ∀ y : ℝ, 0 < y → Real.sqrt (cR * cR * y) = cR * Real.sqrt y := by
    intro y _
    rw [show cR * cR * y = cR ^ 2 * y by ring, Real.sqrt_mul (by positivity), Real.sqrt_sq hc.le]
  induction q using EReal.rec with
  | bot =>
    rw [EReal.coe_mul_bot_of_pos hcc, max_eq_right bot_le, max_eq_right bot_le, Ideal.sqrt_coe, Ideal.sqrt_coe,
      if_neg (not_lt.2 (mul_pos hcc he).le), if_neg (not_lt.2 he.le), ← EReal.coe_mul, hsq eR he]
  | top =>
    rw [EReal.coe_mul_top_of_pos hcc, max_eq_left le_top, max_eq_left le_top, Ideal.sqrt_top,
      EReal.coe_mul_top_of_pos hc]
  | coe r =>
    have hm : 0 < max r eR := lt_max_of_lt_right he
    have e1 : max (cR * cR * r) (cR * cR * eR) = cR * cR * max r eR :=
      (mul_max_of_nonneg r eR hcc.le).symm
    rw [← EReal.coe_mul, ← coe_max', ← coe_max', e1, Ideal.sqrt_coe, Ideal.sqrt_coe,
      if_neg (not_lt.2 (mul_pos hcc hm).le), if_neg (not_lt.2 hm.le), ← EReal.coe_mul, hsq _ hm]

/-! ## The Matérn-5/2 factor in both spellings -/

/-- (1 + s + s²/3) · exp t, where t is the exponent as a program spells −s. The literals 1.0 and 3.0 are kept as
    the words both programs carry; neither is evaluated. -/
def factor (s t : EReal) : EReal :=
  ((Ideal.ofBits .f32 0x3F800000#32 + s) + Ideal.div (s * s) (Ideal.ofBits .f32 0x40400000#32)) * Ideal.exp t

/-- One spelling of the scaled distance from the squared distance q: the scale c² inside the root and the clamp. -/
def sK (q : EReal) : EReal :=
  Ideal.sqrt (max (((87960932805001 / 17592186044416 : ℝ) : EReal) * q)
    ((202824101181881920843 / 40564819207303340847894502572032 : ℝ) : EReal))

/-- The other spelling: the root of the clamped squared distance, then the scale c outside. -/
def sR (q : EReal) : EReal :=
  Ideal.ofBits .f32 0x400F1BBD#32 * Ideal.sqrt (max q (Ideal.ofBits .f32 0x2B8CBCCC#32))

/-- The factor with the exponent spelt 0 − s. -/
def kvK (q : EReal) : EReal := factor (sK q) (Ideal.ofBits .f32 0x00000000#32 - sK q)

/-- The factor with the exponent spelt −s. -/
def kvR (q : EReal) : EReal := factor (sR q) (-(sR q))

theorem sK_eq_sR (q : EReal) : sK q = sR q := by
  unfold sK sR
  rw [ofBits_sqrt5, ofBits_eps]
  exact sqrt_scaled q

/-- The two spellings are one function of the squared distance. -/
theorem kvK_eq_kvR (q : EReal) : kvK q = kvR q := by
  unfold kvK kvR
  rw [sK_eq_sR, ofBits_zero, zero_sub]

end Cert.Matern

end
-- ==== Proof.Spec.lean ====
/-
  The kernel's result as one function of the six arrays the grid reads, index by index.

  Column Q of the 1 × 8192 result is accumulated over 8 strips of 1024 observations each.  Strip s contributes
      Σ_j ( Σ_r A'(n, j) · kv(n, Q) ) · B(j, Q),      n = 1024·s + r,
  where kv(n, Q) is the Matérn factor of the squared distance  (aa(n) + bb(Q)) − 2 · Σ_k a(n,k) · b(Q,k),
  A' is the 8192 × 5 table of weights and B the 5 × 8192 selector.  The running row starts at the zero word.
-/
import Idealize.ShloMosaic.Lib.ValueIdx
import proofs.«105002_j35751307772139_2_alg».proof.Proof.Matern

open scoped BigOperators

noncomputable section

namespace Cert.Spec

open Idealize.ShloMosaic Idealize.ShloMosaic.ValueIdx

/-- A matrix of extended reals over literal extents. -/
abbrev Mat (n k : ℕ) : Type := (⟨2, ![n, k]⟩ : Shape).Idx → EReal

/-- Observation r of strip s, as a row of the whole array. -/
def row (s : ℕ) (r : Fin 1024) : Fin 8192 :=
  ⟨1024 * (s % 8) + r.val, by have := r.isLt; have := Nat.mod_lt s (by norm_num : 0 < 8); omega⟩

/-- The squared distance of observation n and query point Q from the precomputed squared norms and the cross term. -/
def sqd (a b : Mat 8192 8) (sa : Mat 8192 1) (sb : Mat 1 8192) (n Q : Fin 8192) : EReal :=
  (sa (ix2 n (0 : Fin 1)) + sb (ix2 (0 : Fin 1) Q))
    - Ideal.ofBits .f32 0x40000000#32 * ∑ k : Fin 8, a (ix2 n k) * b (ix2 Q k)

/-- What strip s adds to column Q. -/
def stripSum (a b : Mat 8192 8) (ap : Mat 8192 5) (bt : Mat 5 8192) (sa : Mat 8192 1) (sb : Mat 1 8192)
    (s : ℕ) (Q : Fin 8192) : EReal :=
  ∑ j : Fin 5, (∑ r : Fin 1024, ap (ix2 (row s r) j) * Matern.kvK (sqd a b sa sb (row s r) Q)) * bt (ix2 j Q)

/-- Column Q of the result: the zero word plus the eight strips' contributions, in order. -/
def kernelOut (a b : Mat 8192 8) (ap : Mat 8192 5) (bt : Mat 5 8192) (sa : Mat 8192 1) (sb : Mat 1 8192)
    (Q : Fin 8192) : EReal :=
  Ideal.ofBits .f32 0x00000000#32 + ∑ s ∈ Finset.range 8, stripSum a b ap bt sa sb s Q

/-! ## The reference's form -/

/-- A one-entry vector (the length scale). -/
abbrev Vec1 : Type := (⟨1, ![1]⟩ : Shape).Idx → EReal

/-- x / ℓ entrywise, ℓ the one entry of the length scale. -/
def scaled (x : Mat 8192 8) (ls : Vec1) : Mat 8192 8 := fun i => Ideal.div (x i) (ls (ix1 (0 : Fin 1)))

/-- The squared norm of row n as a sum from the zero word. -/
def sqNorm (a : Mat 8192 8) (n : Fin 8192) : EReal :=
  Ideal.ofBits .f32 0x00000000#32 + ∑ k : Fin 8, a (ix2 n k) * a (ix2 n k)

/-- The squared distance with the factor 2 inside the cross term: ‖a_n‖² + ‖b_Q‖² − Σ_k (2·a(n,k))·b(Q,k). -/
def sqdRef (a b : Mat 8192 8) (n Q : Fin 8192) : EReal :=
  (sqNorm a n + sqNorm b Q) - ∑ k : Fin 8, (Ideal.ofBits .f32 0x40000000#32 * a (ix2 n k)) * b (ix2 Q k)

/-- Column Q as one sum over the observations: Σ_n α(n) · (W(n, Q) · kv(n, Q)). -/
def refOut (alpha : Mat 8192 1) (W : Mat 8192 8192) (a b : Mat 8192 8) (Q : Fin 8192) : EReal :=
  ∑ n : Fin 8192, alpha (ix2 n (0 : Fin 1)) * (W (ix2 n Q) * Matern.kvR (sqdRef a b n Q))

/-- An index of a rank-1 shape is determined by its coordinate. -/
theorem idx_eq1 {n : ℕ} (f : (⟨1, ![n]⟩ : Shape).Idx) (a : Fin n) (h : (f 0).val = a.val) : f = ix1 a :=
  funext fun d => Fin.ext (by match d with | ⟨0, _⟩ => exact h)

/-- An index of a rank-2 shape is determined by its two coordinates. -/
theorem idx_eq2 {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

end Cert.Spec

end
-- ==== Proof.RefAt.lean ====
/-
  The reference's result read at an index.

  Column Q of the reference's 1 × 8192 result is  Σ_n α(n) · (W(n, Q) · kv(n, Q)):  the final product contracts the
  transposed weights α with K = W ∘ M over the 8192 observations, M(n, Q) is the Matérn factor of the squared distance
  ‖a_n‖² + ‖b_Q‖² − Σ_k (2·a(n,k))·b(Q,k) of the scaled inputs a = xobs / ℓ, b = x / ℓ, and W is the gathered table,
  left unopened here.
-/
import proofs.«105002_j35751307772139_2_alg».proof.Proof.Gen.ReferenceIdeal.Read
import proofs.«105002_j35751307772139_2_alg».proof.Proof.Spec

open scoped BigOperators

noncomputable section

namespace Cert.ReferenceIdeal.At

open Cert.ReferenceIdeal Cert.ReferenceIdeal.Read Idealize.ShloMosaic Idealize.ShloMosaic.ValueIdx Cert.Spec

variable (x0 x1 : (⟨S8192x8, .f32⟩ : BufTy).Contents (Elt Ideal)) (x2 : (⟨S8192x1, .f32⟩ : BufTy).Contents (Elt Ideal))
  (x3 : (⟨S6, .f32⟩ : BufTy).Contents (Elt Ideal)) (x4 : (⟨S1, .f32⟩ : BufTy).Contents (Elt Ideal))
  (x5 x6 : (⟨S4x2, .i32⟩ : BufTy).Contents (Elt Ideal))

/-- a = xobs / ℓ. -/
theorem a_apply (n : Fin 8192) (k : Fin 8) : val_main_v8 (F := Ideal) x1 x4 (ix2 n k) = scaled x1 x4 (ix2 n k) := by
  rw [val_main_v8_apply, val_main_v7_apply, val_main_v6_apply]
  exact congrArg (fun j => Ideal.div (x1 (ix2 n k)) (x4 j)) (idx_eq1 _ _ rfl)

/-- b = x / ℓ. -/
theorem b_apply (n : Fin 8192) (k : Fin 8) : val_main_v11 (F := Ideal) x0 x4 (ix2 n k) = scaled x0 x4 (ix2 n k) := by
  rw [val_main_v11_apply, val_main_v10_apply, val_main_v9_apply]
  exact congrArg (fun j => Ideal.div (x0 (ix2 n k)) (x4 j)) (idx_eq1 _ _ rfl)

/-- ‖a_n‖². -/
theorem sqa_apply (n : Fin 8192) : val_main_v13 (F := Ideal) x1 x4 (ix1 n) = sqNorm (scaled x1 x4) n := by
  rw [val_main_v13_apply]
  refine congrArg₂ (· + ·) rfl (Finset.sum_congr rfl fun k _ => ?_)
  have e : idx_main_v13 (ix1 n) k = ix2 n k := idx_eq2 _ _ _ rfl rfl
  rw [e, val_main_v12_apply, a_apply]
  rfl

/-- ‖b_Q‖². -/
theorem sqb_apply (n : Fin 8192) : val_main_v16 (F := Ideal) x0 x4 (ix1 n) = sqNorm (scaled x0 x4) n := by
  rw [val_main_v16_apply]
  refine congrArg₂ (· + ·) rfl (Finset.sum_congr rfl fun k _ => ?_)
  have e : idx_main_v16 (ix1 n) k = ix2 n k := idx_eq2 _ _ _ rfl rfl
  rw [e, val_main_v15_apply, b_apply]
  rfl

/-- The cross term with the factor 2 on the left operand: Σ_k (2·a(n,k))·b(Q,k). -/
theorem cross_apply (n Q : Fin 8192) :
    val_main_v24 (F := Ideal) x0 x1 x4 (ix2 n Q)
      = ∑ k : Fin 8, (Ideal.ofBits .f32 0x40000000#32 * scaled x1 x4 (ix2 n k)) * scaled x0 x4 (ix2 Q k) := by
  rw [val_main_v24_apply]
  refine Finset.sum_congr rfl fun k _ => ?_
  have el : lidx_main_v24 (ix2 n Q) k = ix2 n k := idx_eq2 _ _ _ rfl rfl
  have er : ridx_main_v24 (ix2 n Q) k = ix2 k Q := idx_eq2 _ _ _ rfl rfl
  have et : idx_main_v23 (ix2 k Q) = ix2 Q k := idx_eq2 _ _ _ rfl rfl
  rw [el, er, val_main_v22_apply, val_main_v21_apply, val_main_v23_apply, et, a_apply, b_apply]
  rfl

/-- The squared distance as the reference forms it. -/
theorem sq_apply (n Q : Fin 8192) :
    val_main_v25 (F := Ideal) x0 x1 x4 (ix2 n Q) = sqdRef (scaled x1 x4) (scaled x0 x4) n Q := by
  have e1 : idx_main_v14 (idx_main_v18 (ix2 n Q)) = ix1 n := idx_eq1 _ _ rfl
  have e2 : idx_main_v17 (idx_main_v19 (ix2 n Q)) = ix1 Q := idx_eq1 _ _ rfl
  rw [val_main_v25_apply, val_main_v20_apply, val_main_v18_apply, val_main_v14_apply, e1, val_main_v19_apply,
    val_main_v17_apply, e2, sqa_apply, sqb_apply, cross_apply]
  rfl

/-- M(n, Q): the Matérn factor of the squared distance. -/
theorem matern_apply (n Q : Fin 8192) :
    val_main_v39 (F := Ideal) x0 x1 x4 (ix2 n Q) = Matern.kvR (sqdRef (scaled x1 x4) (scaled x0 x4) n Q) := by
  rw [val_main_v39_apply, val_main_v36_apply, val_main_v32_apply, val_main_v31_apply, val_main_v35_apply,
    val_main_v33_apply, val_main_v34_apply, val_main_v38_apply, val_main_v37_apply, val_main_v30_apply,
    val_main_v29_apply, val_main_v28_apply, val_main_v27_apply, val_main_v26_apply, sq_apply]
  rfl

/-- Column Q of the result. -/
theorem result_apply (Q : Fin 8192) :
    val_main_v213 (F := Ideal) x0 x1 x2 x3 x4 x5 x6 (ix2 (0 : Fin 1) Q)
      = refOut x2 (val_main_v210 (F := Ideal) x3 x5 x6) (scaled x1 x4) (scaled x0 x4) Q := by
  rw [val_main_v213_apply]
  unfold refOut
  refine Finset.sum_congr rfl fun n _ => ?_
  have el : idx_main_v212 (lidx_main_v213 (ix2 (0 : Fin 1) Q) n) = ix2 n (0 : Fin 1) := idx_eq2 _ _ _ rfl rfl
  have er : ridx_main_v213 (ix2 (0 : Fin 1) Q) n = ix2 n Q := idx_eq2 _ _ _ rfl rfl
  rw [val_main_v212_apply, el, er, val_main_v211_apply, matern_apply]
  rfl

end Cert.ReferenceIdeal.At

end
-- ==== Proof.LibColSum.lean ====
/-
  A column sum read at an index, over the extended reals.

  For an a × b matrix, a `vector.multi_reduction <add>` over the leading axis (the rows) from the neutral
  accumulator reads, at column q, the sum over the a rows p of the entries (p, q): what `jnp.sum(x, axis=0)` is,
  lane by lane, at the exact values.
-/
import Idealize.ShloMosaic.Lib.ValueIdx
import Idealize.ShloMosaic.PureOps.Ideal.Laws

noncomputable section

open scoped BigOperators

namespace Idealize.ShloMosaic.ColSum

open Idealize.ShloMosaic Idealize.ShloMosaic.ValueIdx

/-- The sum over the rows of an `[a, b]` array, at column `q`: the sum over `p` of the entries `(p, q)`. -/
theorem multiReduction_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ p : Fin a, src (ix2 p q) := by
  refine (Ideal.multiReduction_add_single src acc h hφ hacc (ix1 q)).trans ?_
  show ∑ p : Fin a, src (h.lift (ix1 q) p) = ∑ p : Fin a, src (ix2 p q)
  refine Finset.sum_congr rfl fun p _ => congrArg src ?_
  exact funext fun c => Fin.ext (by match c with | ⟨0, _⟩ => rfl | ⟨1, _⟩ => rfl)

end Idealize.ShloMosaic.ColSum

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.Tile.lean ====
/-
  One grid point of the kernel, read at an index, over the extended reals.

  The point holds a strip a of 1024 rows of the scaled observations (1024 × 8), a strip b of 1024 rows of the scaled
  query points (1024 × 8), the squared norms aa (1024 × 1) and bb (1 × 1024) of those rows, a table strip A' (1024 × 5)
  and a selector strip B (5 × 1024).  It forms the cross products  a·bᵀ (r, q) = Σ_k a(r,k)·b(q,k),  the squared
  distances  (aa(r) + bb(q)) − 2·(a·bᵀ)(r,q),  the Matérn factor kv of each, the contraction over the strip's rows
  H(j, q) = Σ_r A'(r, j) · kv(r, q),  and adds to the running row  acc(q) + Σ_j H(j, q) · B(j, q).
  Two lemmas say exactly that, index by index: `contract_apply` for H and `accumulate_apply` for the updated row.
-/
import proofs.«105002_j35751307772139_2_alg».proof.Proof.Gen.KernelIdeal.Skeleton
import proofs.«105002_j35751307772139_2_alg».proof.Proof.Matern
import proofs.«105002_j35751307772139_2_alg».proof.Proof.LibColSum
import proofs.«105002_j35751307772139_2_alg».proof.Proof.LibRowOps
import proofs.«105002_j35751307772139_2_alg».proof.Proof.LibRowSpread
import Idealize.ShloMosaic.Lib.ValueIdx
import Idealize.ShloMosaic.Lib.Pipeline.Value
import Idealize.ShloMosaic.PureOps.Ideal.Laws
import Idealize.ShloMosaic.PureOps.IdealRules

open scoped BigOperators

noncomputable section

namespace Cert.KernelIdeal.Tile

open Cert.KernelIdeal Cert.KernelIdeal.Gen Idealize.ShloMosaic Idealize.ShloMosaic.ValueIdx

/-- The constant under the root that multiplies the squared distance is read as c². -/
theorem named_sq : Named.named (F := Ideal) κ "sqrt5_sq" (φ := .f32) 0x40A00000#32
    = ((87960932805001 / 17592186044416 : ℝ) : EReal) :=
  IdealRules.named_const.ideal_named_scalar _ _ _ _ rfl

/-- The clamp under the root is read as c² · e. -/
theorem named_eps : Named.named (F := Ideal) κ "sqrt5_sq_eps" (φ := .f32) 0x2CAFEBFF#32
    = ((202824101181881920843 / 40564819207303340847894502572032 : ℝ) : EReal) :=
  IdealRules.named_const.ideal_named_scalar _ _ _ _ rfl

/-! ## The two contractions as plain sums -/

/-- Row of the left operand of a·bᵀ: the result's row. -/
theorem cross_lhs0 (i : S1024x1024.Idx) (q : dot_S1024x8_S1024x8_S1024x1024_1_1_0_0_n_n.contr.Idx) :
    (dot_S1024x8_S1024x8_S1024x1024_1_1_0_0_n_n.lhsIdx i q 0).val = (i 0).val := by
  unfold DotDims.lhsIdx
  rw [dif_neg (show ¬(0 : Fin S1024x8.rank) ∈ dot_S1024x8_S1024x8_S1024x1024_1_1_0_0_n_n.lhsBatch by decide),
    dif_pos (show (0 : Fin S1024x8.rank) ∈ dot_S1024x8_S1024x8_S1024x1024_1_1_0_0_n_n.lhsNonContracting by decide)]
  rfl

/-- Row of the right operand of a·bᵀ: the result's column. -/
theorem cross_rhs0 (i : S1024x1024.Idx) (q : dot_S1024x8_S1024x8_S1024x1024_1_1_0_0_n_n.contr.Idx) :
    (dot_S1024x8_S1024x8_S1024x1024_1_1_0_0_n_n.rhsIdx i q 0).val = (i 1).val := by
  unfold DotDims.rhsIdx
  rw [dif_neg (show ¬(0 : Fin S1024x8.rank) ∈ dot_S1024x8_S1024x8_S1024x1024_1_1_0_0_n_n.rhsBatch by decide),
    dif_pos (show (0 : Fin S1024x8.rank) ∈ dot_S1024x8_S1024x8_S1024x1024_1_1_0_0_n_n.rhsNonContracting by decide)]
  rfl

/-- Column of the left operand of A'ᵀ·kv: the result's row. -/
theorem rows_lhs1 (i : S5x1024.Idx) (q : dot_S1024x5_S1024x1024_S5x1024_0_0_1_1_n_n.contr.Idx) :
    (dot_S1024x5_S1024x1024_S5x1024_0_0_1_1_n_n.lhsIdx i q 1).val = (i 0).val := by
  unfold DotDims.lhsIdx
  rw [dif_neg (show ¬(1 : Fin S1024x5.rank) ∈ dot_S1024x5_S1024x1024_S5x1024_0_0_1_1_n_n.lhsBatch by decide),
    dif_pos (show (1 : Fin S1024x5.rank) ∈ dot_S1024x5_S1024x1024_S5x1024_0_0_1_1_n_n.lhsNonContracting by decide)]
  rfl

/-- Column of the right operand of A'ᵀ·kv: the result's column. -/
theorem rows_rhs1 (i : S5x1024.Idx) (q : dot_S1024x5_S1024x1024_S5x1024_0_0_1_1_n_n.contr.Idx) :
    (dot_S1024x5_S1024x1024_S5x1024_0_0_1_1_n_n.rhsIdx i q 1).val = (i 1).val := by
  unfold DotDims.rhsIdx
  rw [dif_neg (show ¬(1 : Fin S1024x1024.rank) ∈ dot_S1024x5_S1024x1024_S5x1024_0_0_1_1_n_n.rhsBatch by decide),
    dif_pos (show (1 : Fin S1024x1024.rank) ∈ dot_S1024x5_S1024x1024_S5x1024_0_0_1_1_n_n.rhsNonContracting by decide)]
  rfl

/-- a·bᵀ at (r, q): both operands are contracted along their second axis. -/
theorem cross_apply (a b : FVec Ideal S1024x8 .f32) (r q : Fin 1024) :
    FloatOps.matmul dot_S1024x8_S1024x8_S1024x1024_1_1_0_0_n_n (some .fp32) a b
        (constant S1024x1024 .f32 0x00000000#32) (ix2 r q)
      = ∑ k : Fin 8, a (ix2 r k) * b (ix2 q k) := by
  rw [Ideal.matmul_constant_zero_apply,
    ← Equiv.sum_comp (contrEquiv1 dot_S1024x8_S1024x8_S1024x1024_1_1_0_0_n_n 8 rfl rfl).symm]
  refine Finset.sum_congr rfl fun k _ => ?_
  have hk := contrEquiv1_symm_val dot_S1024x8_S1024x8_S1024x1024_1_1_0_0_n_n 8 rfl rfl k
  have el : dot_S1024x8_S1024x8_S1024x1024_1_1_0_0_n_n.lhsIdx (ix2 r q)
      ((contrEquiv1 dot_S1024x8_S1024x8_S1024x1024_1_1_0_0_n_n 8 rfl rfl).symm k) = ix2 r k :=
    funext fun x => Fin.ext (by
      match x with
      | ⟨0, _⟩ => exact cross_lhs0 _ _
      | ⟨1, _⟩ => exact (dot_S1024x8_S1024x8_S1024x1024_1_1_0_0_n_n.lhsIdx_val_of_single rfl _ _).trans hk)
  have er : dot_S1024x8_S1024x8_S1024x1024_1_1_0_0_n_n.rhsIdx (ix2 r q)
      ((contrEquiv1 dot_S1024x8_S1024x8_S1024x1024_1_1_0_0_n_n 8 rfl rfl).symm k) = ix2 q k :=
    funext fun x => Fin.ext (by
      match x with
      | ⟨0, _⟩ => exact cross_rhs0 _ _
      | ⟨1, _⟩ => exact (dot_S1024x8_S1024x8_S1024x1024_1_1_0_0_n_n.rhsIdx_val_of_single rfl _ _).trans hk)
  rw [el, er]

/-- A'ᵀ·kv at (j, q): both operands are contracted along their first axis, the strip's rows. -/
theorem rows_apply (t : FVec Ideal S1024x5 .f32) (v : FVec Ideal S1024x1024 .f32) (j : Fin 5) (q : Fin 1024) :
    FloatOps.matmul dot_S1024x5_S1024x1024_S5x1024_0_0_1_1_n_n none t v
        (constant S5x1024 .f32 0x00000000#32) (ix2 j q)
      = ∑ r : Fin 1024, t (ix2 r j) * v (ix2 r q) := by
  rw [Ideal.matmul_constant_zero_apply,
    ← Equiv.sum_comp (contrEquiv1 dot_S1024x5_S1024x1024_S5x1024_0_0_1_1_n_n 1024 rfl rfl).symm]
  refine Finset.sum_congr rfl fun k _ => ?_
  have hk := contrEquiv1_symm_val dot_S1024x5_S1024x1024_S5x1024_0_0_1_1_n_n 1024 rfl rfl k
  have el : dot_S1024x5_S1024x1024_S5x1024_0_0_1_1_n_n.lhsIdx (ix2 j q)
      ((contrEquiv1 dot_S1024x5_S1024x1024_S5x1024_0_0_1_1_n_n 1024 rfl rfl).symm k) = ix2 k j :=
    funext fun x => Fin.ext (by
      match x with
      | ⟨0, _⟩ => exact (dot_S1024x5_S1024x1024_S5x1024_0_0_1_1_n_n.lhsIdx_val_of_single rfl _ _).trans hk
      | ⟨1, _⟩ => exact rows_lhs1 _ _)
  have er : dot_S1024x5_S1024x1024_S5x1024_0_0_1_1_n_n.rhsIdx (ix2 j q)
      ((contrEquiv1 dot_S1024x5_S1024x1024_S5x1024_0_0_1_1_n_n 1024 rfl rfl).symm k) = ix2 k q :=
    funext fun x => Fin.ext (by
      match x with
      | ⟨0, _⟩ => exact (dot_S1024x5_S1024x1024_S5x1024_0_0_1_1_n_n.rhsIdx_val_of_single rfl _ _).trans hk
      | ⟨1, _⟩ => exact rows_rhs1 _ _)
  rw [el, er]

/-! ## The point's two results at an index -/

/-- The squared distance of row r of the observation strip and row q of the query strip, as the point forms it. -/
def sqDist (a b : FVec Ideal S1024x8 .f32) (aa : FVec Ideal S1024x1 .f32) (bb : FVec Ideal S1x1024 .f32)
    (r q : Fin 1024) : EReal :=
  (aa (ix2 r (0 : Fin 1)) + bb (ix2 (0 : Fin 1) q))
    - Ideal.ofBits .f32 0x40000000#32 * ∑ k : Fin 8, a (ix2 r k) * b (ix2 q k)

/-- H(j, q) = Σ_r A'(r, j) · kv(r, q). -/
theorem contract_apply (a b : FVec Ideal S1024x8 .f32) (aa : FVec Ideal S1024x1 .f32) (bb : FVec Ideal S1x1024 .f32)
    (t : FVec Ideal S1024x5 .f32) (j : Fin 5) (q : Fin 1024) :
    k0_pay3 (F := Ideal) a b aa bb t (ix2 j q)
      = ∑ r : Fin 1024, t (ix2 r j) * Matern.kvK (sqDist a b aa bb r q) := by
  unfold k0_pay3
  refine (rows_apply _ _ j q).trans ?_
  refine Finset.sum_congr rfl fun r _ => ?_
  refine congrArg₂ (· * ·) (congrFun (shapeCast_self t _) _) ?_
  -- the factor at (r, q): every operation between the cross products and the factor is elementwise
  show Matern.factor
      (Ideal.sqrt (max (Named.named (F := Ideal) κ "sqrt5_sq" (φ := .f32) 0x40A00000#32 * _)
        (Named.named (F := Ideal) κ "sqrt5_sq_eps" (φ := .f32) 0x2CAFEBFF#32))) _ = _
  rw [named_sq, named_eps]
  unfold Matern.kvK Matern.sK sqDist
  have e1 : broadcastTo S1024x1024 (shapeCast S1024x1 aa shapeCasts_S1024x1_S1024x1) broadcasts_S1024x1_S1024x1024 (ix2 r q)
      = aa (ix2 r (0 : Fin 1)) :=
    (RowOps.colBcast_apply _ _ r q).trans (congrFun (shapeCast_self aa _) _)
  have e2 : broadcastTo S1024x1024 (shapeCast S1x1024 bb shapeCasts_S1x1024_S1x1024) broadcasts_S1x1024_S1024x1024 (ix2 r q)
      = bb (ix2 (0 : Fin 1) q) :=
    (RowSpread.rowBcast_apply _ _ r q).trans (congrFun (shapeCast_self bb _) _)
  have e3 : matmul dot_S1024x8_S1024x8_S1024x1024_1_1_0_0_n_n (some .fp32)
      (shapeCast S1024x8 a shapeCasts_S1024x8_S1024x8) (shapeCast S1024x8 b shapeCasts_S1024x8_S1024x8)
      (constant S1024x1024 .f32 0x00000000#32) (ix2 r q) = ∑ k : Fin 8, a (ix2 r k) * b (ix2 q k) := by
    rw [shapeCast_self a, shapeCast_self b]; exact cross_apply a b r q
  have hq : (subf (addf (broadcastTo S1024x1024 (shapeCast S1024x1 aa shapeCasts_S1024x1_S1024x1) broadcasts_S1024x1_S1024x1024)
        (broadcastTo S1024x1024 (shapeCast S1x1024 bb shapeCasts_S1x1024_S1x1024) broadcasts_S1x1024_S1024x1024))
      (mulf (broadcast S1024x1024 (Scalar.ofBits (F := Ideal) .f32 0x40000000#32))
        (matmul dot_S1024x8_S1024x8_S1024x1024_1_1_0_0_n_n (some .fp32) (shapeCast S1024x8 a shapeCasts_S1024x8_S1024x8)
          (shapeCast S1024x8 b shapeCasts_S1024x8_S1024x8) (constant S1024x1024 .f32 0x00000000#32)))) (ix2 r q)
      = (aa (ix2 r (0 : Fin 1)) + bb (ix2 (0 : Fin 1) q))
        - Ideal.ofBits .f32 0x40000000#32 * ∑ k : Fin 8, a (ix2 r k) * b (ix2 q k) := by
    show (_ + _) - _ * _ = _
    rw [e1, e2, e3]; rfl
  rw [← hq]
  rfl

/-- The updated row at q:  acc(q) + Σ_j H(j, q) · B(j, q). -/
theorem accumulate_apply (H : FVec Ideal S5x1024 .f32) (B : FVec Ideal S5x1024 .f32) (acc : FVec Ideal S1x1024 .f32)
    (q : Fin 1024) :
    k0_pay1 (F := Ideal) H B acc (ix2 (0 : Fin 1) q)
      = acc (ix2 (0 : Fin 1) q) + ∑ j : Fin 5, H (ix2 j q) * B (ix2 j q) := by
  unfold k0_pay1
  show shapeCast S1x1024 acc shapeCasts_S1x1024_S1x1024 (ix2 (0 : Fin 1) q)
      + shapeCast S1x1024 (multiReduction .add [0] S1024 (mulf H (shapeCast S5x1024 B shapeCasts_S5x1024_S5x1024))
          0x00000000#32 reduces_S5x1024_S1024 (.inl rfl) rfl) shapeCasts_S1024_S1x1024 (ix2 (0 : Fin 1) q) = _
  refine congrArg₂ (· + ·) (congrFun (shapeCast_self acc _) _) ?_
  refine (shapeCast_addUnit_apply ![1024] _ shapeCasts_S1024_S1x1024 (ix2 (0 : Fin 1) q)).trans ?_
  have hi : (fun x : Fin 1 => (ix2 (0 : Fin 1) q) x.succ) = ix1 q := funext fun x => by
    match x with
    | ⟨0, _⟩ => rfl
  rw [hi]
  refine (ColSum.multiReduction_rows_apply _ _ _ _ _ q).trans ?_
  refine Finset.sum_congr rfl fun j _ => ?_
  show H (ix2 j q) * shapeCast S5x1024 B shapeCasts_S5x1024_S5x1024 (ix2 j q) = _
  rw [shapeCast_self B]

end Cert.KernelIdeal.Tile

end
-- ==== Proof.KernelSum.lean ====
/-
  The kernel's result array is `Spec.kernelOut` of the six arrays the grid reads.

  The grid is 8 × 8; point t = 8·g + s works on strip s of the observations (rows 1024·s … 1024·s + 1023 of the
  observation-side arrays) and on block g of the query points (columns 1024·g … 1024·g + 1023), and the 8 points of
  one g form a run that accumulates into the same block of the result: the first resets the block to the zero row and
  adds its strip's contribution, each later one adds its own.  So the block after the run is the zero row plus the sum
  of the 8 contributions, and each contribution, read through the blocks' offsets, is `Spec.stripSum`.
-/
import proofs.«105002_j35751307772139_2_alg».proof.Proof.Gen.KernelIdeal.Value
import proofs.«105002_j35751307772139_2_alg».proof.Proof.Tile
import proofs.«105002_j35751307772139_2_alg».proof.Proof.Spec

open scoped BigOperators

noncomputable section

namespace Cert.KernelIdeal.Sum

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ)

/-- The printed index maps over the grid: observation-side windows follow the strip t mod 8, query-side windows the
    block t div 8, and every window starts at 0 on its other axis. -/
theorem idx_facts : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = 0
    ∧ win0_3.index t (0 : Fin 2) = 0 ∧ win0_3.index t (1 : Fin 2) = t.val / 8
    ∧ win0_4.index t (0 : Fin 2) = t.val % 8 ∧ win0_4.index t (1 : Fin 2) = 0
    ∧ win0_5.index t (0 : Fin 2) = 0 ∧ win0_5.index t (1 : Fin 2) = t.val / 8 :=
  (by decide +kernel : ∀ t : Fin grid0.N, _)

/-- Row r of the point's strip, as a row of the whole array. -/
def obsRow (t : Fin cfg0.N) (r : Fin 1024) : Fin 8192 := ⟨1024 * (t.val % 8) + r.val, by have := r.isLt; omega⟩

/-- Column q of the point's block, as a column of the whole array. -/
def qryCol (t : Fin cfg0.N) (q : Fin 1024) : Fin 8192 :=
  ⟨1024 * (t.val / 8) + q.val, by have := r_lt t; have := q.isLt; omega⟩
where r_lt (t : Fin cfg0.N) : t.val < 64 := lt_of_lt_of_eq t.isLt N_0

/-! ## The six input blocks as reads of the arrays -/

theorem blk0 (c : Dev nD) (t : Fin cfg0.N) (r : Fin 1024) (k : Fin 8) :
    iblk m c 0 t (ix2 r k) = V m c main_v171 (ix2 (obsRow t r) k) := by
  obtain ⟨e0, e1, -⟩ := idx_facts t
  show V m c main_v171 (((cfg0.win 0).blk t).view.emb (ix2 r k)) = _
  refine congrArg (V m c main_v171) (funext fun a => Fin.ext ?_)
  match a with
  | ⟨0, _⟩ => show win0_0.index t (0 : Fin 2) * 1024 + 1 * r.val = 1024 * (t.val % 8) + r.val; omega
  | ⟨1, _⟩ => show win0_0.index t (1 : Fin 2) * 8 + 1 * k.val = k.val; omega

theorem blk1 (c : Dev nD) (t : Fin cfg0.N) (q : Fin 1024) (k : Fin 8) :
    iblk m c 1 t (ix2 q k) = V m c main_v173 (ix2 (qryCol t q) k) := by
  obtain ⟨-, -, e0, e1, -⟩ := idx_facts t
  show V m c main_v173 (((cfg0.win 1).blk t).view.emb (ix2 q k)) = _
  refine congrArg (V m c main_v173) (funext fun a => Fin.ext ?_)
  match a with
  | ⟨0, _⟩ => show win0_1.index t (0 : Fin 2) * 1024 + 1 * q.val = 1024 * (t.val / 8) + q.val; omega
  | ⟨1, _⟩ => show win0_1.index t (1 : Fin 2) * 8 + 1 * k.val = k.val; omega

theorem blk2 (c : Dev nD) (t : Fin cfg0.N) (r : Fin 1024) (j : Fin 5) :
    iblk m c 2 t (ix2 r j) = V m c main_v167 (ix2 (obsRow t r) j) := by
  obtain ⟨-, -, -, -, e0, e1, -⟩ := idx_facts t
  show V m c main_v167 (((cfg0.win 2).blk t).view.emb (ix2 r j)) = _
  refine congrArg (V m c main_v167) (funext fun a => Fin.ext ?_)
  match a with
  | ⟨0, _⟩ => show win0_2.index t (0 : Fin 2) * 1024 + 1 * r.val = 1024 * (t.val % 8) + r.val; omega
  | ⟨1, _⟩ => show win0_2.index t (1 : Fin 2) * 5 + 1 * j.val = j.val; omega

theorem blk3 (c : Dev nD) (t : Fin cfg0.N) (j : Fin 5) (q : Fin 1024) :
    iblk m c 3 t (ix2 j q) = V m c main_v168 (ix2 j (qryCol t q)) := by
  obtain ⟨-, -, -, -, -, -, e0, e1, -⟩ := idx_facts t
  show V m c main_v168 (((cfg0.win 3).blk t).view.emb (ix2 j q)) = _
  refine congrArg (V m c main_v168) (funext fun a => Fin.ext ?_)
  match a with
  | ⟨0, _⟩ => show win0_3.index t (0 : Fin 2) * 5 + 1 * j.val = j.val; omega
  | ⟨1, _⟩ => show win0_3.index t (1 : Fin 2) * 1024 + 1 * q.val = 1024 * (t.val / 8) + q.val; omega

theorem blk4 (c : Dev nD) (t : Fin cfg0.N) (r : Fin 1024) :
    iblk m c 4 t (ix2 r (0 : Fin 1)) = V m c main_v176 (ix2 (obsRow t r) (0 : Fin 1)) := by
  obtain ⟨-, -, -, -, -, -, -, -, e0, e1, -⟩ := idx_facts t
  show V m c main_v176 (((cfg0.win 4).blk t).view.emb (ix2 r (0 : Fin 1))) = _
  refine congrArg (V m c main_v176) (funext fun a => Fin.ext ?_)
  match a with
  | ⟨0, _⟩ => show win0_4.index t (0 : Fin 2) * 1024 + 1 * r.val = 1024 * (t.val % 8) + r.val; omega
  | ⟨1, _⟩ => show win0_4.index t (1 : Fin 2) * 1 + 1 * (0 : ℕ) = 0; omega

theorem blk5 (c : Dev nD) (t : Fin cfg0.N) (q : Fin 1024) :
    iblk m c 5 t (ix2 (0 : Fin 1) q) = V m c main_v180 (ix2 (0 : Fin 1) (qryCol t q)) := by
  obtain ⟨-, -, -, -, -, -, -, -, -, -, e0, e1⟩ := idx_facts t
  show V m c main_v180 (((cfg0.win 5).blk t).view.emb (ix2 (0 : Fin 1) q)) = _
  refine congrArg (V m c main_v180) (funext fun a => Fin.ext ?_)
  match a with
  | ⟨0, _⟩ => show win0_5.index t (0 : Fin 2) * 1 + 1 * (0 : ℕ) = 0; omega
  | ⟨1, _⟩ => show win0_5.index t (1 : Fin 2) * 1024 + 1 * q.val = 1024 * (t.val / 8) + q.val; omega

/-! ## One point's contribution -/

/-- What grid point n adds to column q of its block (0 past the grid, where it is never read). -/
def addend (c : Dev nD) (n : ℕ) (q : Fin 1024) : EReal :=
  if h : n < cfg0.N then
    ∑ j : Fin 5, k0_pay3 (F := Ideal) (iblk m c 0 ⟨n, h⟩) (iblk m c 1 ⟨n, h⟩) (iblk m c 4 ⟨n, h⟩) (iblk m c 5 ⟨n, h⟩)
        (iblk m c 2 ⟨n, h⟩) (ix2 j q) * iblk m c 3 ⟨n, h⟩ (ix2 j q)
  else 0

/-- The contribution of point t, read through the blocks' offsets, is its strip's `Spec.stripSum` at the column. -/
theorem addend_eq (c : Dev nD) (t : Fin cfg0.N) (q : Fin 1024) :
    addend m c t.val q
      = Spec.stripSum (V m c main_v171) (V m c main_v173) (V m c main_v167) (V m c main_v168) (V m c main_v176)
          (V m c main_v180) t.val (qryCol t q) := by
  unfold addend
  rw [dif_pos t.isLt]
  unfold Spec.stripSum
  refine Finset.sum_congr rfl fun j _ => ?_
  refine congrArg₂ (· * ·) ?_ (blk3 m c t j q)
  refine (Tile.contract_apply (iblk m c 0 t) (iblk m c 1 t) (iblk m c 4 t) (iblk m c 5 t) (iblk m c 2 t) j q).trans ?_
  refine Finset.sum_congr rfl fun r _ => ?_
  refine congrArg₂ (· * ·) (blk2 m c t r j) (congrArg Matern.kvK ?_)
  unfold Tile.sqDist Spec.sqd
  refine congrArg₂ (· - ·) (congrArg₂ (· + ·) (blk4 m c t r) (blk5 m c t q)) (congrArg (_ * ·) ?_)
  exact Finset.sum_congr rfl fun k _ => congrArg₂ (· * ·) (blk0 m c t r k) (blk1 m c t q k)

/-! ## The run's fold -/

/-- Column Q of the result array: the zero word plus the contributions of the 8 points of Q's run. -/
theorem G6_apply (c : Dev nD) (Q : Fin 8192) :
    Value.G6 (F := Ideal) m c (ix2 (0 : Fin 1) Q)
      = Ideal.ofBits .f32 0x00000000#32
        + ∑ s ∈ Finset.range 8, addend m c (8 * (Q.val / 1024) + s) ⟨Q.val % 1024, Nat.mod_lt _ (by norm_num)⟩ := by
  have hQ := Q.isLt
  have hN : cfg0.N = 64 := N_0
  have hrun : Value.run6Of (ix2 (0 : Fin 1) Q) = Q.val / 1024 := by
    show 8 * ((0 : ℕ) / 1 - 0) + 1 * (Q.val / 1024 - 0) = Q.val / 1024
    omega
  have hlt : 8 * Value.run6Of (ix2 (0 : Fin 1) Q) + 7 < cfg0.N := by rw [hrun, hN]; omega
  unfold Value.G6
  rw [dif_pos hlt]
  refine (Pipeline.accAt_add_apply (Value.reset6 m c) (Value.step6 m c) (k0_pay2 (F := Ideal))
    (fun n i => addend m c n ⟨(i 1).val, idx2_lt1 i⟩) (8 * Value.run6Of (ix2 (0 : Fin 1) Q)) 7 ?_ ?_ 7 le_rfl hlt
    (Value.loc6Of (ix2 (0 : Fin 1) Q))).trans ?_
  · intro h i
    obtain ⟨p, q, rfl⟩ : ∃ (p : Fin 1) (q : Fin 1024), i = ix2 p q := ⟨i 0, i 1, eq_ix2 i⟩
    obtain rfl : p = 0 := Subsingleton.elim _ _
    unfold Value.reset6
    refine (Tile.accumulate_apply
      (k0_pay3 (F := Ideal) (iblk m c 0 ⟨_, h⟩) (iblk m c 1 ⟨_, h⟩) (iblk m c 4 ⟨_, h⟩) (iblk m c 5 ⟨_, h⟩) (iblk m c 2 ⟨_, h⟩))
      (iblk m c 3 ⟨_, h⟩) (k0_pay2 (F := Ideal)) q).trans ?_
    unfold addend
    rw [dif_pos h]
  · intro n h acc i _ _
    obtain ⟨p, q, rfl⟩ : ∃ (p : Fin 1) (q : Fin 1024), i = ix2 p q := ⟨i 0, i 1, eq_ix2 i⟩
    obtain rfl : p = 0 := Subsingleton.elim _ _
    unfold Value.step6
    refine (Tile.accumulate_apply
      (k0_pay3 (F := Ideal) (iblk m c 0 ⟨n, h⟩) (iblk m c 1 ⟨n, h⟩) (iblk m c 4 ⟨n, h⟩) (iblk m c 5 ⟨n, h⟩) (iblk m c 2 ⟨n, h⟩))
      (iblk m c 3 ⟨n, h⟩) acc q).trans ?_
    unfold addend
    rw [dif_pos h]
  · refine congrArg₂ (· + ·) rfl (Finset.sum_congr rfl fun s _ => ?_)
    show addend m c (8 * Value.run6Of (ix2 (0 : Fin 1) Q) + s) ⟨Q.val % 1024, _⟩ = _
    rw [hrun]

/-- Strips are counted modulo 8: point 8·g + s works on strip s. -/
theorem stripSum_run (a b : Spec.Mat 8192 8) (ap : Spec.Mat 8192 5) (bt : Spec.Mat 5 8192) (sa : Spec.Mat 8192 1)
    (sb : Spec.Mat 1 8192) (g s : ℕ) (Q : Fin 8192) :
    Spec.stripSum a b ap bt sa sb (8 * g + s) Q = Spec.stripSum a b ap bt sa sb s Q := by
  have hr : ∀ r, Spec.row (8 * g + s) r = Spec.row s r := fun r => Fin.ext (by
    show 1024 * ((8 * g + s) % 8) + r.val = 1024 * (s % 8) + r.val
    omega)
  unfold Spec.stripSum
  simp only [hr]

/-- The result array at column Q is `Spec.kernelOut` of the six arrays as the grid finds them. -/
theorem G6_eq (c : Dev nD) (Q : Fin 8192) :
    Value.G6 (F := Ideal) m c (ix2 (0 : Fin 1) Q)
      = Spec.kernelOut (V m c main_v171) (V m c main_v173) (V m c main_v167) (V m c main_v168) (V m c main_v176)
          (V m c main_v180) Q := by
  have hQ := Q.isLt
  have hN : cfg0.N = 64 := N_0
  rw [G6_apply]
  unfold Spec.kernelOut
  refine congrArg₂ (· + ·) rfl (Finset.sum_congr rfl fun s hs => ?_)
  have hs8 : s < 8 := Finset.mem_range.1 hs
  have hn : 8 * (Q.val / 1024) + s < cfg0.N := by rw [hN]; omega
  refine ((addend_eq m c ⟨8 * (Q.val / 1024) + s, hn⟩ _).trans ?_).trans (stripSum_run _ _ _ _ _ _ (Q.val / 1024) s Q)
  refine congrArg (Spec.stripSum _ _ _ _ _ _ _) (Fin.ext ?_)
  show 1024 * ((8 * (Q.val / 1024) + s) / 8) + Q.val % 1024 = Q.val
  omega

end Cert.KernelIdeal.Sum

end
-- ==== Proof.HostA.lean ====
/-
  The arrays the grid reads, as the host operations before it leave them: the scaled inputs and their squared norms.

  a = xobs / ℓ and b = x / ℓ with ℓ the length scale's one entry spread over the array; the squared norms are the row
  sums of a ∘ a and b ∘ b from the zero word, kept as a column for the observations and turned into a row for the
  query points.
-/
import proofs.«105002_j35751307772139_2_alg».proof.Proof.Gen.KernelIdeal.Frame
import Idealize.ShloMosaic.Lib.StableHlo.Run

noncomputable section

namespace Cert.KernelIdeal.HostA

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- Reads a buffer through the host operations that run before the grid: the fold over the flattened list of
    operations is rewritten, one pass, to the operations' functions applied to the contents at their operand buffers;
    both sides of the goal are normalised the same way and then agree. -/
macro "host_read" : tactic => `(tactic| (
  dsimp only [V]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17,
    hostOps0_18, List.flatten_cons, List.flatten_nil, List.append_nil, List.cons_append, List.nil_append]
  after_results_simp <;> rfl))

set_option maxRecDepth 8192 in
set_option maxHeartbeats 40000000 in
/-- The length scale as a rank-0 array: the one entry of the input. -/
theorem V_ls (c : Dev nD) : V m c main_v169 = shapeCast S_ (V m c main_arg4) shapeCasts_S1_S_ := by
  host_read

set_option maxRecDepth 8192 in
set_option maxHeartbeats 40000000 in
/-- a = xobs / ℓ. -/
theorem V_a (c : Dev nD) :
    V m c main_v171 = Host.divf (F := Ideal) (s := S8192x8) (φ := .f32) (V m c main_arg1)
      (broadcastInDim S8192x8 ![] bcast_S_S8192x8 (V m c main_v169)) := by
  host_read

set_option maxRecDepth 8192 in
set_option maxHeartbeats 40000000 in
/-- b = x / ℓ. -/
theorem V_b (c : Dev nD) :
    V m c main_v173 = Host.divf (F := Ideal) (s := S8192x8) (φ := .f32) (V m c main_arg0)
      (broadcastInDim S8192x8 ![] bcast_S_S8192x8 (V m c main_v169)) := by
  host_read

set_option maxRecDepth 8192 in
set_option maxHeartbeats 40000000 in
/-- The observations' squared norms, as a column. -/
theorem V_sa (c : Dev nD) :
    V m c main_v176 = broadcastInDim S8192x1 ![0] bcast_S8192_S8192x1_0
      (Host.reduceAdd (F := Ideal) (s := S8192x8) (φ := .f32)
        (mulf (F := Ideal) (s := S8192x8) (φ := .f32) (V m c main_v171) (V m c main_v171))
        (constant (F := Ideal) S_ .f32 0x00000000#32) reducesTo_S8192x8_S8192_d1 h_S_) := by
  host_read

set_option maxRecDepth 8192 in
set_option maxHeartbeats 40000000 in
/-- The query points' squared norms, as a row. -/
theorem V_sb (c : Dev nD) :
    V m c main_v180 = transpose S1x8192 [1, 0] (broadcastInDim S8192x1 ![0] bcast_S8192_S8192x1_0
      (Host.reduceAdd (F := Ideal) (s := S8192x8) (φ := .f32)
        (mulf (F := Ideal) (s := S8192x8) (φ := .f32) (V m c main_v173) (V m c main_v173))
        (constant (F := Ideal) S_ .f32 0x00000000#32) reducesTo_S8192x8_S8192_d1 h_S_))
      transposes_S8192x1_S1x8192_1_0 := by
  host_read

end Cert.KernelIdeal.HostA

end
-- ==== Proof.HostB.lean ====
/-
  The arrays the grid reads, as the host operations before it leave them: the weights and the selector.

  The weights are  A' = α ∘ (E · T):  E the 8192 × 5 matrix with a 1 in row n at the observation's label and 0 elsewhere
  (the label compared with 0 … 4, the outcome read as a number), T the 5 × 5 table, α the weights spread over the 5
  columns.  The selector is the transpose of the same 0/1 matrix built from the query points' labels.
-/
import proofs.«105002_j35751307772139_2_alg».proof.Proof.Gen.KernelIdeal.Frame
import Idealize.ShloMosaic.Lib.StableHlo.Run

noncomputable section

namespace Cert.KernelIdeal.HostB

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- Reads a buffer through the host operations that run before the grid: the fold over the flattened list of
    operations is rewritten, one pass, to the operations' functions applied to the contents at their operand buffers;
    both sides of the goal are normalised the same way and then agree. -/
macro "host_read" : tactic => `(tactic| (
  dsimp only [V]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17,
    hostOps0_18, List.flatten_cons, List.flatten_nil, List.append_nil, List.cons_append, List.nil_append]
  after_results_simp <;> rfl))

set_option maxRecDepth 8192 in
set_option maxHeartbeats 40000000 in
/-- E for the observations: the label against 0 … 4. -/
theorem V_ohObs (c : Dev nD) :
    V m c main_v163 = uitofp (F := Ideal) (s := S8192x5) (w := 1) .f32
      (cmpi (s := S8192x5) (w := 32) .eq
        (broadcastInDim S8192x5 ![0, 1] bcast_S8192x1_S8192x5_0_1
          (broadcastInDim S8192x1 ![0] bcast_S8192_S8192x1_0 (V m c main_v120)))
        (broadcastInDim S8192x5 ![0, 1] bcast_S1x5_S8192x5_0_1 (iotaInDim S1x5 32 1))) := by
  host_read

set_option maxRecDepth 8192 in
set_option maxHeartbeats 40000000 in
/-- E for the query points. -/
theorem V_ohQry (c : Dev nD) :
    V m c main_v164 = uitofp (F := Ideal) (s := S8192x5) (w := 1) .f32
      (cmpi (s := S8192x5) (w := 32) .eq
        (broadcastInDim S8192x5 ![0, 1] bcast_S8192x1_S8192x5_0_1
          (broadcastInDim S8192x1 ![0] bcast_S8192_S8192x1_0 (V m c main_v162)))
        (broadcastInDim S8192x5 ![0, 1] bcast_S1x5_S8192x5_0_1 (iotaInDim S1x5 32 1))) := by
  host_read

set_option maxRecDepth 8192 in
set_option maxHeartbeats 40000000 in
/-- A' = α ∘ (E · T). -/
theorem V_ap (c : Dev nD) :
    V m c main_v167 = mulf (F := Ideal) (s := S8192x5) (φ := .f32)
      (broadcastInDim S8192x5 ![0, 1] bcast_S8192x1_S8192x5_0_1 (V m c main_arg2))
      (Host.dotGeneral (F := Ideal) (φ₁ := .f32) (φ₂ := .f32) dot_S8192x5_S5x5_S8192x5_1_0_0_1_n_n none
        (V m c main_v163) (V m c main_v78)) := by
  host_read

set_option maxRecDepth 8192 in
set_option maxHeartbeats 40000000 in
/-- The selector: E of the query points, transposed. -/
theorem V_bt (c : Dev nD) :
    V m c main_v168 = transpose S5x8192 [1, 0] (V m c main_v164) transposes_S8192x5_S5x8192_1_0 := by
  host_read

end Cert.KernelIdeal.HostB

end
-- ==== Proof.HostC.lean ====
/-
  The table and the two label vectors are computed by the same operations in both programs.

  Both programs build the 5 × 5 table from the logistic function of the six transfer logits by twelve writes into an
  all-ones matrix, and label each of the 8192 positions by four successive choices over the initial label 4.  The
  kernel's host operations and the reference's stages are the same pure terms of the inputs.
-/
import proofs.«105002_j35751307772139_2_alg».proof.Proof.Gen.KernelIdeal.Frame
import Idealize.ShloMosaic.Lib.StableHlo.Run
import proofs.«105002_j35751307772139_2_alg».proof.Proof.Gen.ReferenceIdeal.Read

noncomputable section

namespace Cert.KernelIdeal.HostC

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- Reads a buffer through the host operations that run before the grid: the fold over the flattened list of
    operations is rewritten, one pass, to the operations' functions applied to the contents at their operand buffers;
    both sides of the goal are normalised the same way and then agree. -/
macro "host_read" : tactic => `(tactic| (
  dsimp only [V]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17,
    hostOps0_18, List.flatten_cons, List.flatten_nil, List.append_nil, List.cons_append, List.nil_append]
  after_results_simp <;> rfl))

set_option maxRecDepth 16384 in
set_option maxHeartbeats 80000000 in
/-- The table. -/
theorem V_table (c : Dev nD) :
    V m c main_v78 = Cert.ReferenceIdeal.Read.val_main_v112 (F := Ideal) (V m c main_arg3) := by
  host_read

set_option maxRecDepth 16384 in
set_option maxHeartbeats 80000000 in
/-- The observations' labels. -/
theorem V_labObs (c : Dev nD) :
    V m c main_v120 = Cert.ReferenceIdeal.Read.val_main_v154 (F := Ideal) (V m c main_arg5) := by
  host_read

set_option maxRecDepth 16384 in
set_option maxHeartbeats 80000000 in
/-- The query points' labels. -/
theorem V_labQry (c : Dev nD) :
    V m c main_v162 = Cert.ReferenceIdeal.Read.val_main_v196 (F := Ideal) (V m c main_arg6) := by
  host_read

end Cert.KernelIdeal.HostC

end
-- ==== Proof.LibGatherRows.lean ====
/-
  A gather of whole rows, and of single entries, at a column of start indices, read at an index.

  What x[idx] lowers to for an N × D matrix x (or a vector x of N entries) and E integer indices kept as an
  E × 1 column: result row e is the row of x whose number is the index idx[e, 0] read as a signed integer and
  clamped into [0, N − 1].
-/
import Idealize.ShloMosaic.Lib.ValueIdx

noncomputable section

namespace Idealize.ShloMosaic.GatherRows

open Idealize.ShloMosaic Idealize.ShloMosaic.ValueIdx

variable {α : Type}

/-- The dimension numbers of a row gather: operand [N, D], start indices [E, 1], result [E, D]. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row e, column q of the gathered rows is x at (the clamped index of e, q). -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowDims N D E wf) x idx (ix2 e q)
      = x (ix2 (⟨min (idx (ix2 e (0 : Fin 1))).toInt.toNat (N - 1), by omega⟩ : Fin N) q) := by
  unfold Host.gather
  congr 1
  funext a
  refine Fin.ext ?_
  match a with
  | ⟨0, _⟩ =>
    show (rowDims N D E wf).start (ix2 e q) idx 0 + (rowDims N D E wf).batchCoord (ix2 e q) 0
        + (rowDims N D E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e q) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e q) idx 1 + (rowDims N D E wf).batchCoord (ix2 e q) 1
        + (rowDims N D E wf).offCoord (ix2 e q) 1 = q.val
    rw [GatherDims.batchCoord_eq_zero _ _ _ List.not_mem_nil]
    have hs : (rowDims N D E wf).start (ix2 e q) idx 1 = 0 := by
      unfold GatherDims.start
      rw [dif_neg (show ¬ (1 : Fin 2) ∈ (rowDims N D E wf).startIndexMap from by
        show ¬ (1 : Fin 2) ∈ ([0] : List (Fin 2)); decide)]
    rw [hs]
    simp only [Nat.add_zero, Nat.zero_add]
    unfold GatherDims.offCoord
    rw [dif_pos (show (1 : Fin 2) ∈ (rowDims N D E wf).sKept from
      (GatherDims.mem_sKept _ _).mpr ⟨by show ¬ (1 : Fin 2) ∈ ([0] : List (Fin 2)); decide, List.not_mem_nil⟩)]
    rfl

/-- The dimension numbers of an entry gather: operand [N], start indices [E, 1], result [E]. -/
abbrev entryDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gathered entries is x at the clamped index of e. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (entryDims N E wf).start (ix1 e) idx 0 + (entryDims N E wf).batchCoord (ix1 e) 0
      + (entryDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 e) ⟨List.idxOf (0 : Fin 1) (entryDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.GatherRows

end
-- ==== Proof.LibGatherCols.lean ====
/-
  General lemma: a gather of whole columns, read at an index.

  For an operand x of shape [R, N] and an [C, 1] array of start indices, the gather that keeps the first axis whole
  (offset axis 0), collapses the second (slice size 1 there) and maps the one start-index component to the second axis
  — what  x[:, idx]  lowers to — has at (r, c) the operand's entry (r, idx[c, 0]), the index read signed and clamped
  into [0, N − 1].
-/
import Idealize.ShloMosaic.Lib.ValueIdx

noncomputable section

namespace Idealize.ShloMosaic.GatherCols

open Idealize.ShloMosaic Idealize.ShloMosaic.ValueIdx

variable {α : Type}

/-- The dimension numbers of a column gather: operand [R, N], start indices [C, 1], result [R, C]. -/
abbrev colDims (R N C : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- Row r, column c of the gathered columns is x at (r, the clamped index of c). -/
theorem gather_cols_apply {R N C w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (c : Fin C) :
    Host.gather (colDims R N C wf) x idx (ix2 r c)
      = x (ix2 r (⟨min (idx (ix2 c (0 : Fin 1))).toInt.toNat (N - 1), by omega⟩ : Fin N)) := by
  unfold Host.gather
  congr 1
  funext a
  refine Fin.ext ?_
  match a with
  | ⟨0, _⟩ =>
    show (colDims R N C wf).start (ix2 r c) idx 0 + (colDims R N C wf).batchCoord (ix2 r c) 0
        + (colDims R N C wf).offCoord (ix2 r c) 0 = r.val
    rw [GatherDims.batchCoord_eq_zero _ _ _ List.not_mem_nil]
    have hs : (colDims R N C wf).start (ix2 r c) idx 0 = 0 := by
      unfold GatherDims.start
      rw [dif_neg (show ¬ (0 : Fin 2) ∈ (colDims R N C wf).startIndexMap from by
        show ¬ (0 : Fin 2) ∈ ([1] : List (Fin 2)); decide)]
    rw [hs]
    simp only [Nat.add_zero, Nat.zero_add]
    unfold GatherDims.offCoord
    rw [dif_pos (show (0 : Fin 2) ∈ (colDims R N C wf).sKept from
      (GatherDims.mem_sKept _ _).mpr ⟨by show ¬ (0 : Fin 2) ∈ ([1] : List (Fin 2)); decide, List.not_mem_nil⟩)]
    rfl
  | ⟨1, _⟩ =>
    show (colDims R N C wf).start (ix2 r c) idx 1 + (colDims R N C wf).batchCoord (ix2 r c) 1
        + (colDims R N C wf).offCoord (ix2 r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R N C wf).startIndexMap from List.mem_singleton.mpr rfl)]
    have hsi : (colDims R N C wf).siIdx (ix2 r c) ⟨List.idxOf (1 : Fin 2) (colDims R N C wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    rfl

end Idealize.ShloMosaic.GatherCols

end
-- ==== Proof.Table.lean ====
/-
  The gathered weights W = T[ℓ][:, ℓ'] read at an index.

  Each label is built by four successive choices of 0, 1, 2, 3 over the initial label 4, so whatever the conditions
  are it is one of 0 … 4.  For such a label the wrap of negative indices (ℓ < 0 ? ℓ + 5 : ℓ) returns ℓ, and clamping
  into [0, 4] returns ℓ again; hence the gather of rows of T at the observations' labels followed by the gather of
  columns at the query points' labels has, at (n, Q), the table's entry (ℓ_n, ℓ'_Q).
-/
import proofs.«105002_j35751307772139_2_alg».proof.Proof.Gen.ReferenceIdeal.Read
import proofs.«105002_j35751307772139_2_alg».proof.Proof.Spec
import proofs.«105002_j35751307772139_2_alg».proof.Proof.LibGatherRows
import proofs.«105002_j35751307772139_2_alg».proof.Proof.LibGatherCols

noncomputable section

namespace Cert.ReferenceIdeal.Table

open Cert.ReferenceIdeal Cert.ReferenceIdeal.Read Idealize.ShloMosaic Idealize.ShloMosaic.ValueIdx Cert.Spec

variable (x3 : (⟨S6, .f32⟩ : BufTy).Contents (Elt Ideal)) (x5 x6 : (⟨S4x2, .i32⟩ : BufTy).Contents (Elt Ideal))

/-- Four successive choices of 3, 2, 1, 0 over the initial 4 leave one of 0 … 4. -/
theorem chain_range (b0 b1 b2 b3 : BitVec 1) :
    ∃ l : Fin 5, Scalar.select b3 (3#32) (Scalar.select b2 (2#32) (Scalar.select b1 (1#32)
      (Scalar.select b0 (0#32) (4#32)))) = BitVec.ofNat 32 l.val := by
  unfold Scalar.select
  by_cases h3 : b3 = 1
  · exact ⟨3, by rw [if_pos h3]; rfl⟩
  · by_cases h2 : b2 = 1
    · exact ⟨2, by rw [if_neg h3, if_pos h2]; rfl⟩
    · by_cases h1 : b1 = 1
      · exact ⟨1, by rw [if_neg h3, if_neg h2, if_pos h1]; rfl⟩
      · by_cases h0 : b0 = 1
        · exact ⟨0, by rw [if_neg h3, if_neg h2, if_neg h1, if_pos h0]; rfl⟩
        · exact ⟨4, by rw [if_neg h3, if_neg h2, if_neg h1, if_neg h0]; rfl⟩

/-- An observation's label is one of 0 … 4. -/
theorem labObs_range (i : S8192.Idx) : ∃ l : Fin 5, val_main_v154 (F := Ideal) x5 i = BitVec.ofNat 32 l.val := by
  rw [val_main_v154_apply, val_main_call3_v0_apply, val_main_c_36_apply, val_main_v144_apply, val_main_call2_v0_apply,
    val_main_c_35_apply, val_main_v134_apply, val_main_call1_v0_apply, val_main_c_34_apply, val_main_v124_apply,
    val_main_call0_v0_apply, val_main_c_33_apply, val_main_v114_apply, val_main_c_32_apply]
  exact chain_range _ _ _ _

/-- A query point's label is one of 0 … 4. -/
theorem labQry_range (i : S8192.Idx) : ∃ l : Fin 5, val_main_v196 (F := Ideal) x6 i = BitVec.ofNat 32 l.val := by
  rw [val_main_v196_apply, val_main_call7_v0_apply, val_main_c_41_apply, val_main_v186_apply, val_main_call6_v0_apply,
    val_main_c_40_apply, val_main_v176_apply, val_main_call5_v0_apply, val_main_c_39_apply, val_main_v166_apply,
    val_main_call4_v0_apply, val_main_c_38_apply, val_main_v156_apply, val_main_c_37_apply]
  exact chain_range _ _ _ _

/-- The label of observation n, as a number below 5. -/
def labObs (n : Fin 8192) : Fin 5 := Classical.choose (labObs_range x5 (ix1 n))

theorem labObs_spec (n : Fin 8192) : val_main_v154 (F := Ideal) x5 (ix1 n) = BitVec.ofNat 32 (labObs x5 n).val :=
  Classical.choose_spec (labObs_range x5 (ix1 n))

/-- The label of query point Q, as a number below 5. -/
def labQry (Q : Fin 8192) : Fin 5 := Classical.choose (labQry_range x6 (ix1 Q))

theorem labQry_spec (Q : Fin 8192) : val_main_v196 (F := Ideal) x6 (ix1 Q) = BitVec.ofNat 32 (labQry x6 Q).val :=
  Classical.choose_spec (labQry_range x6 (ix1 Q))

/-- For a label below 5 the wrap of negative indices and the clamp into [0, 4] change nothing. -/
theorem wrap_clamp : ∀ l : Fin 5,
    min (Scalar.select (IntOp.cmpi .slt (BitVec.ofNat 32 l.val) (0#32)) (IntOp.addi (BitVec.ofNat 32 l.val) (5#32))
      (BitVec.ofNat 32 l.val)).toInt.toNat (5 - 1) = l.val := by
  decide

/-- The row index the first gather uses for observation n is its label. -/
theorem obs_index (n : Fin 8192) :
    min (val_main_v202 (F := Ideal) x5 (ix2 n (0 : Fin 1))).toInt.toNat (5 - 1) = (labObs x5 n).val := by
  have e : idx_main_v202 (ix2 n (0 : Fin 1)) = ix1 n := idx_eq1 _ _ rfl
  rw [val_main_v202_apply, e, val_main_v201_apply, val_main_v198_apply, val_main_v200_apply, val_main_v197_apply,
    val_main_c_42_apply, val_main_v199_apply, val_main_c_43_apply, labObs_spec]
  exact wrap_clamp _

/-- The column index the second gather uses for query point Q is its label. -/
theorem qry_index (Q : Fin 8192) :
    min (val_main_v209 (F := Ideal) x6 (ix2 Q (0 : Fin 1))).toInt.toNat (5 - 1) = (labQry x6 Q).val := by
  have e : idx_main_v209 (ix2 Q (0 : Fin 1)) = ix1 Q := idx_eq1 _ _ rfl
  rw [val_main_v209_apply, e, val_main_v208_apply, val_main_v205_apply, val_main_v207_apply, val_main_v204_apply,
    val_main_c_44_apply, val_main_v206_apply, val_main_c_45_apply, labQry_spec]
  exact wrap_clamp _

/-- W(n, Q) = T(ℓ_n, ℓ'_Q). -/
theorem W_apply (n Q : Fin 8192) :
    val_main_v210 (F := Ideal) x3 x5 x6 (ix2 n Q)
      = val_main_v112 (F := Ideal) x3 (ix2 (labObs x5 n) (labQry x6 Q)) := by
  unfold val_main_v210
  refine (GatherCols.gather_cols_apply (R := 8192) (N := 5) (C := 8192) (by norm_num) _
    (val_main_v203 (F := Ideal) x3 x5) (val_main_v209 (F := Ideal) x6) n Q).trans ?_
  unfold val_main_v203
  refine (GatherRows.gather_rows_apply (N := 5) (D := 5) (E := 8192) (by norm_num) _
    (val_main_v112 (F := Ideal) x3) (val_main_v202 (F := Ideal) x5) n _).trans ?_
  exact congrArg (val_main_v112 (F := Ideal) x3) (idx_eq2 _ _ _ (obs_index x5 n) (qry_index x6 Q))

end Cert.ReferenceIdeal.Table

end
-- ==== Proof.LibTileSum.lean ====
/-
  A sum over N = T·W consecutive positions, taken tile by tile.

  The positions 0 … N−1 split into T tiles of W consecutive positions each; position w of tile k is W·k + w.
  In any commutative monoid the sum over all positions is the sum over the tiles of each tile's sum. A running
  total that starts from a value z and adds one tile's sum per step therefore ends, after all T steps, at z plus
  the whole sum. Tile numbers are also taken as plain naturals (the position then wraps around past the last
  tile, where it is never used), so that a running total can be stated over an initial segment of the naturals.
-/
import Idealize.ShloMosaic.Lib.ValueIdx

open scoped BigOperators

namespace Idealize.ShloMosaic.TileSum

/-- Position `w` of tile `k` among `N = T·W` positions. -/
def pos {T W N : ℕ} (hN : T * W = N) (k : Fin T) (w : Fin W) : Fin N :=
  ⟨W * k.val + w.val, by
    have hk := k.isLt
    have hw := w.isLt
    calc W * k.val + w.val < W * k.val + W := by omega
      _ = W * (k.val + 1) := by ring
      _ ≤ W * T := Nat.mul_le_mul_left _ hk
      _ = N := by rw [Nat.mul_comm]; exact hN⟩

/-- The sum over all positions is the sum over the tiles of each tile's sum. -/
theorem sum_tiles {M : Type*} [AddCommMonoid M] {T W N : ℕ} (hN : T * W = N) (g : Fin N → M) :
    ∑ f : Fin N, g f = ∑ k : Fin T, ∑ w : Fin W, g (pos hN k w) := by
  subst hN
  rw [← Equiv.sum_comp finProdFinEquiv g, Fintype.sum_prod_type]
  refine Finset.sum_congr rfl fun k _ => Finset.sum_congr rfl fun w _ => congrArg g (Fin.ext ?_)
  show w.val + W * k.val = W * k.val + w.val
  exact Nat.add_comm _ _

/-- Position `w` of the tile numbered `j`, for any natural `j`. -/
def posN {W N : ℕ} (hpos : 0 < N) (j : ℕ) (w : Fin W) : Fin N :=
  ⟨(W * j + w.val) % N, Nat.mod_lt _ hpos⟩

/-- For a tile number below `T` it is that tile's position. -/
theorem posN_eq {T W N : ℕ} (hN : T * W = N) (hpos : 0 < N) (k : Fin T) (w : Fin W) :
    posN hpos k.val w = pos hN k w :=
  Fin.ext (Nat.mod_eq_of_lt (pos hN k w).isLt)

/-- Its value, for a tile number below `T`. -/
theorem posN_val {T W N : ℕ} (hN : T * W = N) (hpos : 0 < N) (j : ℕ) (hj : j < T) (w : Fin W) :
    (posN hpos j w : Fin N).val = W * j + w.val :=
  congrArg Fin.val (posN_eq hN hpos ⟨j, hj⟩ w)

/-- The tiles numbered below `T`, summed, give the whole sum. -/
theorem sum_range_tiles {M : Type*} [AddCommMonoid M] {T W N : ℕ} (hN : T * W = N) (hpos : 0 < N) (g : Fin N → M) :
    ∑ j ∈ Finset.range T, ∑ w : Fin W, g (posN hpos j w) = ∑ f : Fin N, g f := by
  rw [Finset.sum_range, sum_tiles hN g]
  exact Finset.sum_congr rfl fun k _ => Finset.sum_congr rfl fun w _ => congrArg g (posN_eq hN hpos k w)

/-- A running total: what is there after the steps below `n`, plus step `n`'s addend, is what is there after the
    steps below `n + 1`. -/
theorem run_succ {M : Type*} [AddCommMonoid M] (z : M) (a : ℕ → M) (n : ℕ) :
    (z + ∑ j ∈ Finset.range n, a j) + a n = z + ∑ j ∈ Finset.range (n + 1), a j := by
  rw [Finset.sum_range_succ, add_assoc]

/-- A running total after its first step. -/
theorem run_one {M : Type*} [AddCommMonoid M] (z : M) (a : ℕ → M) :
    z + a 0 = z + ∑ j ∈ Finset.range 1, a j := by
  rw [Finset.sum_range_one]

end Idealize.ShloMosaic.TileSum
-- ==== Proof.LibScaledSums.lean ====
/-
  General lemmas on finite sums of extended reals, used where a mean is taken in one step or in two.

  A sum over the index set of a rank-3 array is the triple sum over its coordinates. Multiplication by a real
  constant that is not negative distributes over a finite sum of extended reals, at the infinities too. Hence
  dividing each term of a sum by a positive real c and the sum by a positive real d is dividing the sum of the
  terms by c · d, with no finiteness hypothesis on the terms.
-/
import Idealize.ShloMosaic.PureOps.Ideal
import Idealize.ShloMosaic.Lib.ValueIdx

noncomputable section

open scoped BigOperators

namespace Cert.LibScaledSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- When the last axis has extent one the innermost sum is its one term. -/
theorem sum_idx3_unit {M : Type*} [AddCommMonoid M] {n0 n1 : Nat} (f : (⟨3, ![n0, n1, 1]⟩ : Shape).Idx → M) :
    ∑ i, f i = ∑ a : Fin n0, ∑ b : Fin n1, f (ix3 a b (0 : Fin 1)) := by
  rw [sum_idx3]
  refine Finset.sum_congr rfl fun a _ => Finset.sum_congr rfl fun b _ => ?_
  exact Fin.sum_univ_one _

/-- Multiplying a finite sum of extended reals by a real constant that is not negative multiplies each term. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- Each term divided by a positive real c, the sum then divided by a positive real d: the sum of the terms
    divided by c · d. -/
theorem div_sum_div {ι : Type*} (s : Finset ι) (f : ι → EReal) {c d : ℝ} (hc : 0 < c) (hd : 0 < d) :
    Ideal.div (∑ i ∈ s, Ideal.div (f i) (c : EReal)) (d : EReal)
      = Ideal.div (∑ i ∈ s, f i) ((c * d : ℝ) : EReal) := by
  rw [Ideal.div_coe hd.ne', Ideal.div_coe (mul_pos hc hd).ne']
  have h : ∀ i ∈ s, Ideal.div (f i) (c : EReal) = f i * ((1 / c : ℝ) : EReal) :=
    fun i _ => Ideal.div_coe hc.ne' (f i)
  rw [Finset.sum_congr rfl h, ← sum_mul_coe_of_nonneg s f (one_div_nonneg.mpr hc.le), mul_assoc,
    ← EReal.coe_mul, one_div_mul_one_div]

end Cert.LibScaledSums

end
-- ==== Proof.Bridge.lean ====
/-
  The two whole-array forms agree, over the extended reals, with no finiteness assumed.

  Given the arrays the grid reads as functions of the inputs — the squared norms sa(n) = ‖a_n‖², sb(Q) = ‖b_Q‖², the
  weights A'(n, j) = α(n) · T(ℓ_n, j), the 0/1 selector B(j, Q) = [j = ℓ'_Q], and W(n, Q) = T(ℓ_n, ℓ'_Q) — the strip-by-strip
  form is the single sum over the observations:
    · the selector picks one column:  Σ_j X_j · [j = ℓ'_Q] = X_{ℓ'_Q}   (x · 1 = x, x · 0 = 0);
    · 8 strips of 1024 rows are the 8192 rows, and the zero word adds nothing;
    · 2 · Σ_k a_k b_k = Σ_k (2 a_k) b_k:  a nonnegative real distributes over a finite sum of extended reals, at ±∞ too;
    · (α · T) · kv = α · (T · kv), and the two spellings of the Matérn factor are one function.
-/
import proofs.«105002_j35751307772139_2_alg».proof.Proof.Spec
import proofs.«105002_j35751307772139_2_alg».proof.Proof.LibTileSum
import proofs.«105002_j35751307772139_2_alg».proof.Proof.LibScaledSums

open scoped BigOperators

noncomputable section

namespace Cert.Bridge

open Idealize.ShloMosaic Idealize.ShloMosaic.ValueIdx Cert.Spec

/-- 2 · Σ_k f k = Σ_k 2 · f k on the extended reals. -/
theorem two_mul_sum (f : Fin 8 → EReal) :
    Ideal.ofBits .f32 0x40000000#32 * ∑ k : Fin 8, f k = ∑ k : Fin 8, Ideal.ofBits .f32 0x40000000#32 * f k := by
  rw [Matern.ofBits_two, mul_comm, LibScaledSums.sum_mul_coe_of_nonneg _ _ (by norm_num : (0 : ℝ) ≤ 2)]
  exact Finset.sum_congr rfl fun k _ => mul_comm _ _

/-- The two spellings of the squared distance agree once the precomputed norms are the norms. -/
theorem sqd_eq (a b : Mat 8192 8) (sa : Mat 8192 1) (sb : Mat 1 8192)
    (hsa : ∀ n, sa (ix2 n (0 : Fin 1)) = sqNorm a n) (hsb : ∀ Q, sb (ix2 (0 : Fin 1) Q) = sqNorm b Q) (n Q : Fin 8192) :
    sqd a b sa sb n Q = sqdRef a b n Q := by
  unfold sqd sqdRef
  rw [hsa, hsb, two_mul_sum]
  exact congrArg _ (Finset.sum_congr rfl fun k _ => (mul_assoc _ _ _).symm)

/-- Row r of strip s < 8 is position 1024·s + r of the 8192 rows. -/
theorem row_eq (s : ℕ) (hs : s < 8) (r : Fin 1024) :
    row s r = TileSum.posN (N := 8192) (by norm_num) s r := by
  refine Fin.ext ?_
  rw [TileSum.posN_val (T := 8) (W := 1024) (by norm_num) (by norm_num) s hs r]
  show 1024 * (s % 8) + r.val = 1024 * s + r.val
  rw [Nat.mod_eq_of_lt hs]

theorem kernelOut_eq_refOut (a b : Mat 8192 8) (ap : Mat 8192 5) (bt : Mat 5 8192) (sa : Mat 8192 1) (sb : Mat 1 8192)
    (alpha : Mat 8192 1) (W : Mat 8192 8192) (T : Fin 8192 → Fin 5 → EReal) (lx : Fin 8192 → Fin 5)
    (hsa : ∀ n, sa (ix2 n (0 : Fin 1)) = sqNorm a n) (hsb : ∀ Q, sb (ix2 (0 : Fin 1) Q) = sqNorm b Q)
    (hap : ∀ n j, ap (ix2 n j) = alpha (ix2 n (0 : Fin 1)) * T n j)
    (hbt : ∀ j Q, bt (ix2 j Q) = if j = lx Q then 1 else 0)
    (hW : ∀ n Q, W (ix2 n Q) = T n (lx Q)) (Q : Fin 8192) :
    kernelOut a b ap bt sa sb Q = refOut alpha W a b Q := by
  unfold kernelOut refOut
  rw [Matern.ofBits_zero, zero_add]
  -- the selector keeps the column of Q's label
  have hstrip : ∀ s, stripSum a b ap bt sa sb s Q
      = ∑ r : Fin 1024, ap (ix2 (row s r) (lx Q)) * Matern.kvK (sqd a b sa sb (row s r) Q) := by
    intro s
    unfold stripSum
    rw [Finset.sum_eq_single (lx Q)]
    · rw [hbt, if_pos rfl, mul_one]
    · intro j _ hj
      rw [hbt, if_neg hj, mul_zero]
    · intro h
      exact absurd (Finset.mem_univ _) h
  -- 8 strips of 1024 rows are the 8192 rows
  have hrows : ∑ s ∈ Finset.range 8, stripSum a b ap bt sa sb s Q
      = ∑ n : Fin 8192, ap (ix2 n (lx Q)) * Matern.kvK (sqd a b sa sb n Q) := by
    rw [← TileSum.sum_range_tiles (T := 8) (W := 1024) (N := 8192) (by norm_num) (by norm_num)
      (fun n => ap (ix2 n (lx Q)) * Matern.kvK (sqd a b sa sb n Q))]
    refine Finset.sum_congr rfl fun s hs => ?_
    rw [hstrip]
    refine Finset.sum_congr rfl fun r _ => ?_
    rw [row_eq s (Finset.mem_range.1 hs) r]
  rw [hrows]
  refine Finset.sum_congr rfl fun n _ => ?_
  rw [hap, hW, mul_assoc, Matern.kvK_eq_kvR, sqd_eq a b sa sb hsa hsb]

end Cert.Bridge

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.HostAt.lean ====
/-
  The arrays the grid reads, index by index, and the kernel's whole-array form in terms of the inputs.

  a = xobs / ℓ and b = x / ℓ entrywise; the precomputed norms are the sums of squares of their rows from the zero word;
  the 0/1 matrix of a label vector has, in row n, a 1 exactly at the label (a label is one of 0 … 4, and comparing it
  with 0 … 4 and reading the outcome as a number gives 1 or 0); so the weights are A'(n, j) = α(n) · T(ℓ_n, j), because
  Σ_i [i = ℓ_n] · T(i, j) = T(ℓ_n, j), and the selector is B(j, Q) = [j = ℓ'_Q].  With these the strip-by-strip form of the
  kernel's result is the reference's single sum.
-/
import proofs.«105002_j35751307772139_2_alg».proof.Proof.HostA
import proofs.«105002_j35751307772139_2_alg».proof.Proof.HostB
import proofs.«105002_j35751307772139_2_alg».proof.Proof.HostC
import proofs.«105002_j35751307772139_2_alg».proof.Proof.Table
import proofs.«105002_j35751307772139_2_alg».proof.Proof.Bridge
import proofs.«105002_j35751307772139_2_alg».proof.Proof.LibRowOps
import proofs.«105002_j35751307772139_2_alg».proof.Proof.LibRowSpread
import proofs.«105002_j35751307772139_2_alg».proof.Proof.LibPlainDot
import Idealize.ShloMosaic.Lib.Pipeline.Value

open scoped BigOperators

noncomputable section

namespace Cert.KernelIdeal.HostAt

open Cert.KernelIdeal Cert.KernelIdeal.Gen Idealize.ShloMosaic Idealize.ShloMosaic.ValueIdx Idealize.ShloMosaic.TcCoe
open Idealize.SL.Sem Cert.Spec
open Cert.ReferenceIdeal.Read (val_main_v112 val_main_v154 val_main_v196 val_main_v210)
open Cert.ReferenceIdeal.Table (labObs labQry labObs_spec labQry_spec W_apply)

variable (m : (ℓ : Loc nD τ sig) → Buf (Elt Ideal) ℓ)

/-- The one index of a one-entry vector. -/
theorem idx1_unique (f : (⟨1, ![1]⟩ : Shape).Idx) : f = ix1 (0 : Fin 1) :=
  idx_eq1 f 0 (Nat.lt_one_iff.1 (f 0).isLt)

/-- The length scale spread over the 8192 × 8 array is its one entry everywhere. -/
theorem ls_apply (c : Dev nD) (i : S8192x8.Idx) :
    broadcastInDim S8192x8 ![] bcast_S_S8192x8 (V m c main_v169) i = V m c main_arg4 (ix1 (0 : Fin 1)) := by
  refine (RowSpread.scalarInDim_apply _ bcast_S_S8192x8 i).trans ?_
  rw [HostA.V_ls]
  unfold shapeCast
  exact congrArg _ (idx1_unique _)

/-- An entrywise quotient by an array that holds ℓ at the index is the scaled entry. -/
theorem scaled_of (x l : FVec Ideal S8192x8 .f32) (ls : Vec1) (i : S8192x8.Idx) (h : l i = ls (ix1 (0 : Fin 1))) :
    Host.divf (F := Ideal) (s := S8192x8) (φ := .f32) x l i = scaled x ls i := by
  show Ideal.div (x i) (l i) = Ideal.div (x i) (ls (ix1 (0 : Fin 1)))
  rw [h]

/-- a = xobs / ℓ. -/
theorem a_eq (c : Dev nD) : V m c main_v171 = scaled (V m c main_arg1) (V m c main_arg4) := by
  funext i
  rw [HostA.V_a]
  exact scaled_of _ _ _ i (ls_apply m c i)

/-- b = x / ℓ. -/
theorem b_eq (c : Dev nD) : V m c main_v173 = scaled (V m c main_arg0) (V m c main_arg4) := by
  funext i
  rw [HostA.V_b]
  exact scaled_of _ _ _ i (ls_apply m c i)

/-- The observations' precomputed squared norms. -/
theorem sa_apply (c : Dev nD) (n : Fin 8192) :
    V m c main_v176 (ix2 n (0 : Fin 1)) = sqNorm (V m c main_v171) n := by
  rw [HostA.V_sa]
  refine (RowOps.colInDim_apply _ bcast_S8192_S8192x1_0 n).trans ?_
  refine (RowOps.rowSum_host _ _ reducesTo_S8192x8_S8192_d1 (by decide) h_S_ n).trans ?_
  rfl

/-- The query points' precomputed squared norms. -/
theorem sb_apply (c : Dev nD) (Q : Fin 8192) :
    V m c main_v180 (ix2 (0 : Fin 1) Q) = sqNorm (V m c main_v173) Q := by
  rw [HostA.V_sb]
  refine (transpose_apply [1, 0] _ transposes_S8192x1_S1x8192_1_0 (ix2 (0 : Fin 1) Q) (ix2 Q (0 : Fin 1))
    (fun b => match b with
      | ⟨0, _⟩ => rfl
      | ⟨1, _⟩ => rfl)).trans ?_
  refine (RowOps.colInDim_apply _ bcast_S8192_S8192x1_0 Q).trans ?_
  refine (RowOps.rowSum_host _ _ reducesTo_S8192x8_S8192_d1 (by decide) h_S_ Q).trans ?_
  rfl

/-- Comparing a label below 5 with a number below 5, read as a number: 1 on equality, 0 otherwise. -/
theorem eq_bit : ∀ l i : Fin 5,
    (IntOp.cmpi .eq (BitVec.ofNat 32 l.val) (BitVec.ofNat 32 i.val)).toNat = if i = l then 1 else 0 := by
  decide

/-- Entry (n, i) of the 0/1 matrix of a label vector whose entry n is the label l. -/
theorem onehot_entry (lab : IVec S8192 32) (n : Fin 8192) (i l : Fin 5) (hl : lab (ix1 n) = BitVec.ofNat 32 l.val) :
    uitofp (F := Ideal) (s := S8192x5) (w := 1) .f32
      (cmpi (s := S8192x5) (w := 32) .eq
        (broadcastInDim S8192x5 ![0, 1] bcast_S8192x1_S8192x5_0_1 (broadcastInDim S8192x1 ![0] bcast_S8192_S8192x1_0 lab))
        (broadcastInDim S8192x5 ![0, 1] bcast_S1x5_S8192x5_0_1 (iotaInDim S1x5 32 1))) (ix2 n i)
      = if i = l then (1 : EReal) else 0 := by
  have e1 : broadcastInDim S8192x5 ![0, 1] bcast_S8192x1_S8192x5_0_1
      (broadcastInDim S8192x1 ![0] bcast_S8192_S8192x1_0 lab) (ix2 n i) = BitVec.ofNat 32 l.val :=
    ((RowOps.colInDim2_apply _ bcast_S8192x1_S8192x5_0_1 n i).trans
      (RowOps.colInDim_apply lab bcast_S8192_S8192x1_0 n)).trans hl
  have e2 : broadcastInDim S8192x5 ![0, 1] bcast_S1x5_S8192x5_0_1 (iotaInDim S1x5 32 1) (ix2 n i)
      = BitVec.ofNat 32 i.val :=
    RowSpread.rowInDim2_apply _ bcast_S1x5_S8192x5_0_1 n i
  show (((IntOp.cmpi .eq
      (broadcastInDim S8192x5 ![0, 1] bcast_S8192x1_S8192x5_0_1 (broadcastInDim S8192x1 ![0] bcast_S8192_S8192x1_0 lab) (ix2 n i))
      (broadcastInDim S8192x5 ![0, 1] bcast_S1x5_S8192x5_0_1 (iotaInDim S1x5 32 1) (ix2 n i))).toNat : ℝ) : EReal) = _
  rw [e1, e2, eq_bit]
  split_ifs <;> simp

/-- α spread over the columns, times a 0/1 matrix E times a table: where row n of E has its 1 at l, the entry (n, j)
    is α(n) times the table's entry (l, j). -/
theorem ap_of (alpha : FVec Ideal S8192x1 .f32) (E : FVec Ideal S8192x5 .f32) (Tb : FVec Ideal S5x5 .f32)
    (n : Fin 8192) (j l : Fin 5) (hE : ∀ i : Fin 5, E (ix2 n i) = if i = l then (1 : EReal) else 0) :
    mulf (F := Ideal) (s := S8192x5) (φ := .f32) (broadcastInDim S8192x5 ![0, 1] bcast_S8192x1_S8192x5_0_1 alpha)
        (Host.dotGeneral (F := Ideal) (φ₁ := .f32) (φ₂ := .f32) dot_S8192x5_S5x5_S8192x5_1_0_0_1_n_n none E Tb) (ix2 n j)
      = alpha (ix2 n (0 : Fin 1)) * Tb (ix2 l j) := by
  show broadcastInDim S8192x5 ![0, 1] bcast_S8192x1_S8192x5_0_1 alpha (ix2 n j)
      * Host.dotGeneral (F := Ideal) (φ₁ := .f32) (φ₂ := .f32) dot_S8192x5_S5x5_S8192x5_1_0_0_1_n_n none E Tb (ix2 n j) = _
  refine congrArg₂ (· * ·) (RowOps.colInDim2_apply _ bcast_S8192x1_S8192x5_0_1 n j) ?_
  refine (PlainDot.dotGeneral_apply (M := 8192) (K := 5) (N := 5) none _ E Tb n j).trans ?_
  rw [Finset.sum_eq_single l]
  · rw [hE, if_pos rfl, one_mul]
  · intro i _ hi
    rw [hE, if_neg hi, zero_mul]
  · intro h
    exact absurd (Finset.mem_univ _) h

/-- The weights α as the grid's host operations find them: the input itself. -/
abbrev alphaIn (c : Dev nD) : Mat 8192 1 := V m c main_arg2

/-- The table as a function of the transfer logits. -/
abbrev tableIn (c : Dev nD) : Mat 5 5 := val_main_v112 (F := Ideal) (V m c main_arg3)

/-- The weights: A'(n, j) = α(n) · T(ℓ_n, j). -/
theorem ap_apply (c : Dev nD) (n : Fin 8192) (j : Fin 5) :
    V m c main_v167 (ix2 n j) = alphaIn m c (ix2 n (0 : Fin 1)) * tableIn m c (ix2 (labObs (V m c main_arg5) n) j) := by
  rw [HostB.V_ap]
  refine (ap_of _ _ _ n j (labObs (V m c main_arg5) n) ?_).trans ?_
  · intro i
    rw [HostB.V_ohObs]
    exact onehot_entry (V m c main_v120) n i (labObs (V m c main_arg5) n)
      (by rw [HostC.V_labObs]; exact labObs_spec _ n)
  · rw [HostC.V_table]

/-- The selector: B(j, Q) = [j = ℓ'_Q]. -/
theorem bt_apply (c : Dev nD) (j : Fin 5) (Q : Fin 8192) :
    V m c main_v168 (ix2 j Q) = if j = labQry (V m c main_arg6) Q then (1 : EReal) else 0 := by
  rw [HostB.V_bt]
  refine (transpose_apply [1, 0] _ transposes_S8192x5_S5x8192_1_0 (ix2 j Q) (ix2 Q j)
    (fun b => match b with
      | ⟨0, _⟩ => rfl
      | ⟨1, _⟩ => rfl)).trans ?_
  rw [HostB.V_ohQry]
  exact onehot_entry (V m c main_v162) Q j (labQry (V m c main_arg6) Q)
    (by rw [HostC.V_labQry]; exact labQry_spec _ Q)

/-- The kernel's whole-array form is the reference's, as functions of the inputs. -/
theorem kernelOut_eq (c : Dev nD) (Q : Fin 8192) :
    kernelOut (V m c main_v171) (V m c main_v173) (V m c main_v167) (V m c main_v168) (V m c main_v176)
        (V m c main_v180) Q
      = refOut (V m c main_arg2)
          (val_main_v210 (F := Ideal) (V m c main_arg3) (V m c main_arg5) (V m c main_arg6))
          (scaled (V m c main_arg1) (V m c main_arg4)) (scaled (V m c main_arg0) (V m c main_arg4)) Q := by
  refine (Bridge.kernelOut_eq_refOut (V m c main_v171) (V m c main_v173) (V m c main_v167) (V m c main_v168)
    (V m c main_v176) (V m c main_v180) (alphaIn m c)
    (val_main_v210 (F := Ideal) (V m c main_arg3) (V m c main_arg5) (V m c main_arg6))
    (fun n j => tableIn m c (ix2 (labObs (V m c main_arg5) n) j))
    (labQry (V m c main_arg6))
    (sa_apply m c) (sb_apply m c) (ap_apply m c) (bt_apply m c) (fun n Q => W_apply _ _ _ n Q) Q).trans ?_
  rw [a_eq, b_eq]

end Cert.KernelIdeal.HostAt

end
-- ==== Proof.Claims.lean ====
/-
  The five claims.

  The frames of the two kernel programs are the generated frame certificates; the reference's frame is its generated
  run with the result dropped.  The idealized kernel differs from the printed one in two constants read as exact
  rationals, each restated by the rule's own statement.  For the value claim both runs are posted at one function: the
  kernel's result array is the fold the runs of eight grid points leave (the generated value leg), which column by
  column is the strip-by-strip form of Proof/Spec.lean over the arrays the host operations prepare (Proof/KernelSum.lean),
  and that is the reference's single sum over the observations as a function of the inputs (Proof/HostAt.lean), which
  is what the reference's run computes (Proof/RefAt.lean) from a memory that agrees on the inputs.
-/
import proofs.«105002_j35751307772139_2_alg».proof.Defs
import proofs.«105002_j35751307772139_2_alg».proof.Proof.Gen.Kernel.Frame
import proofs.«105002_j35751307772139_2_alg».proof.Proof.Gen.Pre_finite_inputs
import proofs.«105002_j35751307772139_2_alg».proof.Proof.Gen.KernelIdeal.Value
import proofs.«105002_j35751307772139_2_alg».proof.Proof.Gen.ReferenceIdeal.Run
import proofs.«105002_j35751307772139_2_alg».proof.Proof.Gen.ReferenceIdeal.Read
import proofs.«105002_j35751307772139_2_alg».proof.Proof.RefAt
import proofs.«105002_j35751307772139_2_alg».proof.Proof.KernelSum
import proofs.«105002_j35751307772139_2_alg».proof.Proof.HostAt

noncomputable section

namespace Cert.Proof.Claims

open Idealize.ShloMosaic Idealize.ShloMosaic.ValueIdx Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two constants under the root are read as c² and c² · e (Proof/Matern.lean), by the certificate's table. -/
theorem preserves : Cert.preserves_Kernel_KernelIdeal :=
  ⟨IdealRules.named_const.statement Cert.KernelIdeal.κ "sqrt5_sq" .f32 0x40A00000#32
      ((87960932805001 / 17592186044416 : ℝ) : EReal) rfl,
    IdealRules.named_const.statement Cert.KernelIdeal.κ "sqrt5_sq_eps" .f32 0x2CAFEBFF#32
      ((202824101181881920843 / 40564819207303340847894502572032 : ℝ) : EReal) rfl⟩

open Cert.KernelIdeal in
/-- Column Q of the reference's result, computed from the kernel memory's inputs, is column Q of the kernel's result. -/
theorem result_eq (m : (ℓ : Loc nD τ sig) → Buf (Elt Ideal) ℓ) (c : Dev nD) (Q : Fin 8192) :
    Cert.ReferenceIdeal.Read.val_main_v213 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (ix2 (0 : Fin 1) Q)
      = Value.G6 (F := Ideal) m c (ix2 (0 : Fin 1) Q) := by
  rw [Cert.ReferenceIdeal.At.result_apply, Sum.G6_eq, HostAt.kernelOut_eq, Gen.V_main_arg0, Gen.V_main_arg1,
    Gen.V_main_arg2, Gen.V_main_arg3, Gen.V_main_arg4, Gen.V_main_arg5, Gen.V_main_arg6]

theorem algebraic : Cert.algebraic_KernelIdeal_ReferenceIdeal := by
  intro m ρ m' ρ' _ hagree
  refine ⟨fun c => Cert.KernelIdeal.Value.G6 (F := Ideal) m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v213_eq, h0, h1, h2, h3, h4, h5, h6]
  funext i
  obtain ⟨p, Q, rfl⟩ : ∃ (p : Fin 1) (Q : Fin 8192), i = ix2 p Q := ⟨i 0, i 1, eq_ix2 i⟩
  obtain rfl : p = 0 := Subsingleton.elim _ _
  exact result_eq m c Q

end Cert.Proof.Claims

end
-- ==== Proof.lean ====
/- The proof of `Cert.Claim`: the kernel — a Matérn-5/2 kernel matrix between 8192 observations and 8192 query points,
   built tile by tile, weighted by a 5 × 5 domain-transfer table and by α, and summed over the observations — against
   the plain computation of the same sum.  Over the extended reals the two agree for every input: the squared distance
   is formed the same way up to where the factor 2 sits in the cross term; the scaled distance is c·√(max q e) on one
   side and √(max (c²q) (c²e)) on the other (Proof/Matern.lean); the table row of an observation's label is picked by a
   0/1 matrix product on one side and by a gather on the other (Proof/HostAt.lean, Proof/Table.lean); and the sum over
   the observations is taken in eight strips on one side and at once on the other (Proof/KernelSum.lean,
   Proof/Bridge.lean).  The claims are assembled in Proof/Claims.lean behind the witnesses of the programs' stated
   facts. -/
import proofs.«105002_j35751307772139_2_alg».proof.Defs
import proofs.«105002_j35751307772139_2_alg».proof.Proof.Gen.Kernel
import proofs.«105002_j35751307772139_2_alg».proof.Proof.Gen.Kernel.Skeleton
import proofs.«105002_j35751307772139_2_alg».proof.Proof.Gen.Kernel.Launch
import proofs.«105002_j35751307772139_2_alg».proof.Proof.Gen.Kernel.Points
import proofs.«105002_j35751307772139_2_alg».proof.Proof.Gen.Kernel.Frame
import proofs.«105002_j35751307772139_2_alg».proof.Proof.Gen.KernelIdeal
import proofs.«105002_j35751307772139_2_alg».proof.Proof.Gen.KernelIdeal.Skeleton
import proofs.«105002_j35751307772139_2_alg».proof.Proof.Gen.KernelIdeal.Launch
import proofs.«105002_j35751307772139_2_alg».proof.Proof.Gen.KernelIdeal.Points
import proofs.«105002_j35751307772139_2_alg».proof.Proof.Gen.KernelIdeal.Frame
import proofs.«105002_j35751307772139_2_alg».proof.Proof.Gen.ReferenceIdeal
import proofs.«105002_j35751307772139_2_alg».proof.Proof.Gen.Pre_finite_inputs
import proofs.«105002_j35751307772139_2_alg».proof.Proof.Gen.KernelIdeal.Value
import proofs.«105002_j35751307772139_2_alg».proof.Proof.Gen.ReferenceIdeal.Run
import proofs.«105002_j35751307772139_2_alg».proof.Proof.Gen.ReferenceIdeal.Read
import proofs.«105002_j35751307772139_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
